-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048x4 : Shape := ⟨3, ![4096, 2048, 4]⟩
abbrev S_ : Shape := ⟨0, ![]⟩

class Facts : Prop where
  bcast_S_S4096x2048x4 : S_.BroadcastsInDim S4096x2048x4 (![] : Fin 0 → Fin S4096x2048x4.rank)
  reducesTo_S4096x2048x4_S_d0_1_2 : S4096x2048x4.ReducesTo [0, 1, 2] S_
  h_S_ : 0 < S_.numel

variable [Facts]

def fn {F : FTy → Type} [FloatOps F] (main_arg0 : FVec F S4096x2048x4 .f32) : IVec S_ 1 :=
  let main_v0 : FVec F S4096x2048x4 .f32 := Host.absf main_arg0
  let main_cst : FVec F S_ .f32 := constant S_ .f32 0x7F800000#32
  let main_v1 : FVec F S4096x2048x4 .f32 := broadcastInDim S4096x2048x4 ![] bcast_S_S4096x2048x4 main_cst
  let main_v2 : IVec S4096x2048x4 1 := cmpf .olt main_v0 main_v1
  let main_c : IVec S_ 1 := constantI S_ 1 1#1
  let main_v3 : IVec S_ 1 := (fun x v => Host.reduce IntOp.andi x v reducesTo_S4096x2048x4_S_d0_1_2 h_S_) main_v2 main_c
  main_v3
-- ==== Kernel.lean ====
abbrev S4096x2048x4 : Shape := ⟨3, ![4096, 2048, 4]⟩
abbrev S1024x4x2048x4 : Shape := ⟨4, ![1024, 4, 2048, 4]⟩
abbrev S1024x4x4x2048 : Shape := ⟨4, ![1024, 4, 4, 2048]⟩
abbrev S1024x16x2048 : Shape := ⟨3, ![1024, 16, 2048]⟩
abbrev S16x128 : Shape := ⟨2, ![16, 128]⟩
abbrev S64x16x2048 : Shape := ⟨3, ![64, 16, 2048]⟩
abbrev S8x128 : Shape := ⟨2, ![8, 128]⟩
abbrev S1x1 : Shape := ⟨2, ![1, 1]⟩
abbrev S64x16 : Shape := ⟨2, ![64, 16]⟩
abbrev S64x16x1 : Shape := ⟨3, ![64, 16, 1]⟩
abbrev S64x16x16 : Shape := ⟨3, ![64, 16, 16]⟩
abbrev S16x16 : Shape := ⟨2, ![16, 16]⟩
abbrev S1x16x16 : Shape := ⟨3, ![1, 16, 16]⟩
abbrev S64x1 : Shape := ⟨2, ![64, 1]⟩
abbrev S64x1x1 : Shape := ⟨3, ![64, 1, 1]⟩
abbrev S1x1x1 : Shape := ⟨3, ![1, 1, 1]⟩
abbrev S_ : Shape := ⟨0, ![]⟩

abbrev nBuf : Space → Nat
  | .hbm => 8
  | .vmem => 5
  | .smem => 0
  | _ => 0

abbrev bufTy : (tb : Table) → Fin (tcTables nBuf tb) → BufTy
  | .hbm, ⟨0, _⟩ => ⟨S4096x2048x4, .f32⟩
  | .hbm, ⟨1, _⟩ => ⟨S4096x2048x4, .bf16⟩
  | .hbm, ⟨2, _⟩ => ⟨S1024x4x2048x4, .bf16⟩
  | .hbm, ⟨3, _⟩ => ⟨S1024x4x4x2048, .bf16⟩
  | .hbm, ⟨4, _⟩ => ⟨S1024x16x2048, .bf16⟩
  | .hbm, ⟨5, _⟩ => ⟨S16x128, .f32⟩
  | .hbm, ⟨6, _⟩ => ⟨S_, .f32⟩
  | .hbm, ⟨7, _⟩ => ⟨S_, .f32⟩
  | .local _ .vmem, ⟨0, _⟩ => ⟨S64x16x2048, .bf16⟩
  | .local _ .vmem, ⟨1, _⟩ => ⟨S64x16x2048, .bf16⟩
  | .local _ .vmem, ⟨2, _⟩ => ⟨S8x128, .f32⟩
  | .local _ .vmem, ⟨3, _⟩ => ⟨S8x128, .f32⟩
  | .local _ .vmem, ⟨4, _⟩ => ⟨S1x1, .f32⟩
  | _, _ => ⟨S4096x2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v108 : BitVec 1 := Scalar.cmpi .eq arg1 c7_i32
  let v109 : BitVec 32 := Scalar.extui v108
  let c0_i32_29 : BitVec 32 := 0#32
  let v110 : BitVec 1 := Scalar.cmpi .ne v109 c0_i32_29
  v110

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  bitsLt_bf16_f32 : FTy.bits .bf16 < FTy.bits .f32
  shapeCasts_S4096x2048x4_S1024x4x2048x4 : S4096x2048x4.ShapeCasts S1024x4x2048x4
  transposes_S1024x4x2048x4_S1024x4x4x2048_0_3_1_2 : S1024x4x2048x4.Transposes [0, 3, 1, 2] S1024x4x4x2048
  shapeCasts_S1024x4x4x2048_S1024x16x2048 : S1024x4x4x2048.ShapeCasts S1024x16x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x16x2048_S64x16x2048_0_0_0 : ∀ a, (![0, 0, 0] : Fin 3 → Nat) a + S64x16x2048.size a ≤ S64x16x2048.size a
  h_S64x16x2048 : 0 < S64x16x2048.numel
  shapeCasts_S64x16x2048_S64x16x2048 : S64x16x2048.ShapeCasts S64x16x2048
  reduces_S64x16x2048_S64x16 : S64x16x2048.Reduces [2] S64x16
  shapeCasts_S64x16_S64x16x1 : S64x16.ShapeCasts S64x16x1
  broadcasts_S64x16x1_S64x16x2048 : S64x16x1.Broadcasts S64x16x2048
  iota_S16x16_d0_w32 : S16x16.Iotas .tc 32 [0]
  iota_S16x16_d1_w32 : S16x16.Iotas .tc 32 [1]
  natLt_1_32 : 1 < 32
  reduces_S64x16x16_S64x16 : S64x16x16.Reduces [2] S64x16
  broadcasts_S64x16x1_S64x16x16 : S64x16x1.Broadcasts S64x16x16
  shapeCasts_S16x16_S1x16x16 : S16x16.ShapeCasts S1x16x16
  broadcasts_S1x16x16_S64x16x16 : S1x16x16.Broadcasts S64x16x16
  reduces_S64x16x1_S64x1 : S64x16x1.Reduces [1] S64x1
  shapeCasts_S64x1_S64x1x1 : S64x1.ShapeCasts S64x1x1
  reduces_S64x1x1_S1x1 : S64x1x1.Reduces [0] S1x1
  shapeCasts_S1x1_S1x1x1 : S1x1.ShapeCasts S1x1x1
  shapeCasts_S1x1x1_S1x1 : S1x1x1.ShapeCasts S1x1
  broadcasts_S1x1_S8x128 : S1x1.Broadcasts S8x128
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  h_S_ : 0 < S_.numel
  dot_S64x16x2048_S64x16x2048_S64x16x16_2_2_1_1_0_0_wf : DotDims.WF S64x16x2048 S64x16x2048 S64x16x16 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16x2048.size a ≤ S1024x16x2048.size a
  hwx0_0 : ∀ i : grid0.Coords, EltTy.bits .bf16 = 32 ∨ (Rect.block (s := S1024x16x2048) S64x16x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x128.size a
  hwx0_1 : ∀ i : grid0.Coords, EltTy.bits .f32 = 32 ∨ (Rect.block (s := S16x128) S8x128.size (cc0_transform_1 i) (hinb0_1 i)).WholeWords (EltTy.packing .f32)

variable [Facts₀]

def dot_S64x16x2048_S64x16x2048_S64x16x16_2_2_1_1_0_0 : DotDims S64x16x2048 S64x16x2048 S64x16x16 where
  lhsContracting := [2]
  rhsContracting := [2]
  lhsNonContracting := [1]
  rhsNonContracting := [1]
  lhsBatch := [0]
  rhsBatch := [0]
  wf := dot_S64x16x2048_S64x16x2048_S64x16x16_2_2_1_1_0_0_wf

abbrev win0_0 : Pipeline.Window sig grid0 :=
  Pipeline.Window.ofSpec (Memref.whole main_v3) S64x16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S4096x2048x4 : Shape := ⟨3, ![4096, 2048, 4]⟩
abbrev S1024x4x2048x4 : Shape := ⟨4, ![1024, 4, 2048, 4]⟩
abbrev S1024x4x4x2048 : Shape := ⟨4, ![1024, 4, 4, 2048]⟩
abbrev S1024x16x2048 : Shape := ⟨3, ![1024, 16, 2048]⟩
abbrev S_ : Shape := ⟨0, ![]⟩
abbrev S1024x16 : Shape := ⟨2, ![1024, 16]⟩
abbrev S1024x16x1 : Shape := ⟨3, ![1024, 16, 1]⟩
abbrev S4 : Shape := ⟨1, ![4]⟩
abbrev S4x4 : Shape := ⟨2, ![4, 4]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S1024x16x16 : Shape := ⟨3, ![1024, 16, 16]⟩
abbrev S1x16x16 : Shape := ⟨3, ![1, 16, 16]⟩

abbrev nBuf : Space → Nat
  | .hbm => 61
  | .vmem => 0
  | .smem => 0
  | _ => 0

abbrev bufTy : (tb : Table) → Fin (tcTables nBuf tb) → BufTy
  | .hbm, ⟨0, _⟩ => ⟨S4096x2048x4, .f32⟩
  | .hbm, ⟨1, _⟩ => ⟨S1024x4x2048x4, .f32⟩
  | .hbm, ⟨2, _⟩ => ⟨S1024x4x4x2048, .f32⟩
  | .hbm, ⟨3, _⟩ => ⟨S1024x16x2048, .f32⟩
  | .hbm, ⟨4, _⟩ => ⟨S1024x16x2048, .f32⟩
  | .hbm, ⟨5, _⟩ => ⟨S_, .f32⟩
  | .hbm, ⟨6, _⟩ => ⟨S1024x16, .f32⟩
  | .hbm, ⟨7, _⟩ => ⟨S1024x16x1, .f32⟩
  | .hbm, ⟨8, _⟩ => ⟨S1024x16x1, .f32⟩
  | .hbm, ⟨9, _⟩ => ⟨S_, .f32⟩
  | .hbm, ⟨10, _⟩ => ⟨S1024x16x1, .f32⟩
  | .hbm, ⟨11, _⟩ => ⟨S1024x16x1, .f32⟩
  | .hbm, ⟨12, _⟩ => ⟨S1024x16x2048, .f32⟩
  | .hbm, ⟨13, _⟩ => ⟨S1024x16x2048, .f32⟩
  | .hbm, ⟨14, _⟩ => ⟨S4, .i32⟩
  | .hbm, ⟨15, _⟩ => ⟨S4x4, .i32⟩
  | .hbm, ⟨16, _⟩ => ⟨S16, .i32⟩
  | .hbm, ⟨17, _⟩ => ⟨S16x1, .i32⟩
  | .hbm, ⟨18, _⟩ => ⟨S1x16, .i32⟩
  | .hbm, ⟨19, _⟩ => ⟨S16x16, .i32⟩
  | .hbm, ⟨20, _⟩ => ⟨S16x16, .i32⟩
  | .hbm, ⟨21, _⟩ => ⟨S16x16, .i1⟩
  | .hbm, ⟨22, _⟩ => ⟨S16x16, .f32⟩
  | .hbm, ⟨23, _⟩ => ⟨S16x16, .i32⟩
  | .hbm, ⟨24, _⟩ => ⟨S16x16, .i32⟩
  | .hbm, ⟨25, _⟩ => ⟨S_, .i32⟩
  | .hbm, ⟨26, _⟩ => ⟨S16x16, .i32⟩
  | .hbm, ⟨27, _⟩ => ⟨S16x16, .i32⟩
  | .hbm, ⟨28, _⟩ => ⟨S16x16, .i1⟩
  | .hbm, ⟨29, _⟩ => ⟨S16x16, .f32⟩
  | .hbm, ⟨30, _⟩ => ⟨S_, .f32⟩
  | .hbm, ⟨31, _⟩ => ⟨S16x16, .f32⟩
  | .hbm, ⟨32, _⟩ => ⟨S16x16, .f32⟩
  | .hbm, ⟨33, _⟩ => ⟨S16x16, .f32⟩
  | .hbm, ⟨34, _⟩ => ⟨S1024x16x16, .f32⟩
  | .hbm, ⟨35, _⟩ => ⟨S_, .f32⟩
  | .hbm, ⟨36, _⟩ => ⟨S1024x16x16, .f32⟩
  | .hbm, ⟨37, _⟩ => ⟨S1024x16x16, .f32⟩
  | .hbm, ⟨38, _⟩ => ⟨S1024x16x16, .f32⟩
  | .hbm, ⟨39, _⟩ => ⟨S_, .f32⟩
  | .hbm, ⟨40, _⟩ => ⟨S16x16, .f32⟩
  | .hbm, ⟨41, _⟩ => ⟨S16x16, .f32⟩
  | .hbm, ⟨42, _⟩ => ⟨S1x16x16, .f32⟩
  | .hbm, ⟨43, _⟩ => ⟨S1024x16x16, .f32⟩
  | .hbm, ⟨44, _⟩ => ⟨S1024x16x16, .f32⟩
  | .hbm, ⟨45, _⟩ => ⟨S_, .f32⟩
  | .hbm, ⟨46, _⟩ => ⟨S1024x16, .f32⟩
  | .hbm, ⟨47, _⟩ => ⟨S1024x16x1, .f32⟩
  | .hbm, ⟨48, _⟩ => ⟨S1024x16x16, .f32⟩
  | .hbm, ⟨49, _⟩ => ⟨S1024x16x16, .f32⟩
  | .hbm, ⟨50, _⟩ => ⟨S1024x16x16, .f32⟩
  | .hbm, ⟨51, _⟩ => ⟨S1024x16x16, .f32⟩
  | .hbm, ⟨52, _⟩ => ⟨S1x16x16, .f32⟩
  | .hbm, ⟨53, _⟩ => ⟨S1024x16x16, .f32⟩
  | .hbm, ⟨54, _⟩ => ⟨S1024x16x16, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S4096x2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]

class Facts₀ : Prop where
  shapeCasts_S4096x2048x4_S1024x4x2048x4 : S4096x2048x4.ShapeCasts S1024x4x2048x4
  transposes_S1024x4x2048x4_S1024x4x4x2048_0_3_1_2 : S1024x4x2048x4.Transposes [0, 3, 1, 2] S1024x4x4x2048
  shapeCasts_S1024x4x4x2048_S1024x16x2048 : S1024x4x4x2048.ShapeCasts S1024x16x2048
  reducesTo_S1024x16x2048_S1024x16_d2 : S1024x16x2048.ReducesTo [2] S1024x16
  h_S_ : 0 < S_.numel
  bcast_S1024x16_S1024x16x1_0_1 : S1024x16.BroadcastsInDim S1024x16x1 (![0, 1] : Fin 2 → Fin S1024x16x1.rank)
  bcast_S_S1024x16x1 : S_.BroadcastsInDim S1024x16x1 (![] : Fin 0 → Fin S1024x16x1.rank)
  bcast_S1024x16x1_S1024x16x2048_0_1_2 : S1024x16x1.BroadcastsInDim S1024x16x2048 (![0, 1, 2] : Fin 3 → Fin S1024x16x2048.rank)
  bcast_S4_S4x4_0 : S4.BroadcastsInDim S4x4 (![0] : Fin 1 → Fin S4x4.rank)
  shapeCasts_S4x4_S16 : S4x4.ShapeCasts S16
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  bcast_S_S1024x16x16 : S_.BroadcastsInDim S1024x16x16 (![] : Fin 0 → Fin S1024x16x16.rank)
  bcast_S16x16_S1x16x16_1_2 : S16x16.BroadcastsInDim S1x16x16 (![1, 2] : Fin 2 → Fin S1x16x16.rank)
  bcast_S1x16x16_S1024x16x16_0_1_2 : S1x16x16.BroadcastsInDim S1024x16x16 (![0, 1, 2] : Fin 3 → Fin S1024x16x16.rank)
  reducesTo_S1024x16x16_S1024x16_d2 : S1024x16x16.ReducesTo [2] S1024x16
  bcast_S1024x16x1_S1024x16x16_0_1_2 : S1024x16x1.BroadcastsInDim S1024x16x16 (![0, 1, 2] : Fin 3 → Fin S1024x16x16.rank)
  reducesTo_S1024x16x16_S_d0_1_2 : S1024x16x16.ReducesTo [0, 1, 2] S_
  reducesTo_S16x16_S_d0_1 : S16x16.ReducesTo [0, 1] S_
  dot_S1024x16x2048_S1024x16x2048_S1024x16x16_2_2_1_1_0_0_wf : DotDims.WF S1024x16x2048 S1024x16x2048 S1024x16x16 [2] [2] [1] [1] [0] [0]

variable [Facts₀]

def dot_S1024x16x2048_S1024x16x2048_S1024x16x16_2_2_1_1_0_0 : DotDims S1024x16x2048 S1024x16x2048 S1024x16x16 where
  lhsContracting := [2]
  rhsContracting := [2]
  lhsNonContracting := [1]
  rhsNonContracting := [1]
  lhsBatch := [0]
  rhsBatch := [0]
  wf := dot_S1024x16x2048_S1024x16x2048_S1024x16x16_2_2_1_1_0_0_wf

class Facts : Prop extends Facts₀ where

variable [Facts]
-- ==== Proof.Spec.lean ====
import Idealize.ShloMosaic.PureOps.Ideal
import Idealize.ShloMosaic.PureOps.Ideal.Laws
import Idealize.ShloMosaic.Lib.ValueIdx
import Mathlib

/-!
# The loss of one group, as both programs compute it

The input `x : [4096, 2048, 4]` is read as 1024 groups of 16 rows of 2048 entries: row `r = 4·t + n` of group `g`
is `x[4·g + n, ·, t]`. Within a group every row is divided by its Euclidean norm clamped below at `ε`, the 16 × 16
matrix of inner products of the normalised rows is scaled to logits, and for every ordered pair `(i, j)` of
distinct rows with the same label `⌊i/4⌋ = ⌊j/4⌋` the term
`ℓ_ij − log (Σ_{k : label k ≠ label i} exp ℓ_ik + exp ℓ_ij)` is summed.

One program divides the inner products by the temperature word `D`, the other multiplies them by `1/D`,
subtracts the row maximum `M_i` from the logits first, and so computes
`(ℓ_ij − M_i) − log (Σ_k exp (ℓ_ik − M_i) + exp (ℓ_ij − M_i))`.
-/

noncomputable section

open scoped BigOperators

namespace Cert.GroupLoss

open Idealize.ShloMosaic Idealize.ShloMosaic.ValueIdx

/-- The clamp `ε` under the norm (the f32 word nearest `1e-12`, the same word in both programs). -/
abbrev eps : EReal := Ideal.ofBits .f32 0x2B8CBCCC#32

/-- The temperature word `D` the reference divides by (the f32 word nearest `0.07`, exactly `9395241 / 2^27`). -/
abbrev temp : EReal := Ideal.ofBits .f32 0x3D8F5C29#32

/-- Its reciprocal `1/D`, the factor the kernel multiplies by. -/
abbrev invTemp : EReal := ((134217728 / 9395241 : ℝ) : EReal)

/-- One group: 16 rows of 2048 entries. -/
abbrev Group := Fin 16 → Fin 2048 → EReal

/-- Row `r` of group `g` of the input: `x[4·g + r mod 4, c, r / 4]`. -/
def grp (x : (⟨3, ![4096, 2048, 4]⟩ : Shape).Idx → EReal) (g : Fin 1024) : Group := fun r c =>
  x (ix3 (⟨g.val * 4 + r.val % 4, by have := g.isLt; have := Nat.mod_lt r.val (by decide : 0 < 4); omega⟩ : Fin 4096) c
    (⟨r.val / 4, by have := r.isLt; omega⟩ : Fin 4))

/-- The clamped norm of a row. -/
def nrm (y : Group) (r : Fin 16) : EReal := max (Ideal.sqrt (∑ c : Fin 2048, y r c * y r c)) eps

/-- The normalised row. -/
def unit (y : Group) (r : Fin 16) (c : Fin 2048) : EReal := Ideal.div (y r c) (nrm y r)

/-- The inner product of two normalised rows. -/
def cos (y : Group) (i j : Fin 16) : EReal := ∑ c : Fin 2048, unit y i c * unit y j c

/-- `1` when the two rows carry the same label. -/
def same (i j : Fin 16) : EReal := if i.val / 4 = j.val / 4 then 1 else 0

/-- `1` on the diagonal. -/
def eye (i j : Fin 16) : EReal := if i = j then 1 else 0

/-- The positive pairs: same label, not the same row. -/
def mpos (i j : Fin 16) : EReal := same i j * (1 - eye i j)

/-- The negative pairs: different labels. -/
def anti (i j : Fin 16) : EReal := 1 - same i j

/-- The log-probability of column `j` in a row of logits `ℓ` with negative-pair weights `a`, unshifted. -/
def lp (ℓ a : Fin 16 → EReal) (j : Fin 16) : EReal :=
  ℓ j - Ideal.log ((∑ k : Fin 16, Ideal.exp (ℓ k) * a k) + Ideal.exp (ℓ j))

/-- The row maximum as a fold of `max` from `-∞`. -/
def rowMax (ℓ : Fin 16 → EReal) : EReal := (Finset.univ : Finset (Fin 16)).fold max (⊥ : EReal) ℓ

/-- The same log-probability computed after subtracting the row maximum from every logit. -/
def lpShift (ℓ a : Fin 16 → EReal) (j : Fin 16) : EReal :=
  (ℓ j - rowMax ℓ) - Ideal.log ((∑ k : Fin 16, Ideal.exp (ℓ k - rowMax ℓ) * a k) + Ideal.exp (ℓ j - rowMax ℓ))

/-- A group's loss as the reference computes it: logits `cos / D`, unshifted. -/
def lossDiv (y : Group) : EReal :=
  ∑ i : Fin 16, ∑ j : Fin 16, lp (fun k => Ideal.div (cos y i k) temp) (anti i) j * mpos i j

/-- A group's loss as the kernel computes it: logits `cos · (1/D)`, shifted by the row maximum. -/
def lossMul (y : Group) : EReal :=
  ∑ i : Fin 16, ∑ j : Fin 16, lpShift (fun k => cos y i k * invTemp) (anti i) j * mpos i j

end Cert.GroupLoss

end
-- ==== Proof.LibIndexSums.lean ====
import Idealize.ShloMosaic.Lib.ValueIdx

/-! # Sums over the index set of an array as iterated sums over its coordinates

The index set of a rank-1 array `[n]` is `Fin n` through `ix1`, and the index set of a rank-3 array `[n0, n1, n2]` is
`Fin n0 × Fin n1 × Fin n2` through `ix3`, so a sum over every index of the array is the sum over the coordinate, or
the triple sum over the three coordinates, and the array has `n0 · n1 · n2` indices. Generic in the extents and in the
commutative monoid summed in. (The rank-2 form is the library's `ValueIdx.sum_idx2`.) -/

noncomputable section

namespace Cert.IndexSums

open Idealize.ShloMosaic Idealize.ShloMosaic.ValueIdx

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {A : Type*} [AddCommMonoid A] {n : Nat} (f : (⟨1, ![n]⟩ : Shape).Idx → A) : ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {A : Type*} [AddCommMonoid A] {n0 n1 n2 : Nat} (f : (⟨3, ![n0, n1, n2]⟩ : Shape).Idx → A) :
    ∑ q, f q = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-3 array has as many indices as the product of its extents. -/
theorem card_idx3 {n0 n1 n2 : Nat} : (Finset.univ : Finset (⟨3, ![n0, n1, n2]⟩ : Shape).Idx).card = n0 * (n1 * n2) := by
  rw [Finset.card_univ, Fintype.card_congr (idxEquiv3 (n0 := n0) (n1 := n1) (n2 := n2))]
  simp [Fintype.card_prod]

end Cert.IndexSums

end
-- ==== Proof.RefSide.lean ====
import proofs.«168382_j3461743640727_2_alg».proof.Proof.Gen.ReferenceIdeal.Read
import Idealize.ShloMosaic.Lib.ValueIdx
import Idealize.ShloMosaic.Lib.Pipeline.Value
import Idealize.ShloMosaic.PureOps.Ideal.Laws
import Idealize.ShloMosaic.Lib.IdealHost
import proofs.«168382_j3461743640727_2_alg».proof.Proof.Spec
import proofs.«168382_j3461743640727_2_alg».proof.Proof.LibIndexSums

/-!
# The reference program's result is the specification

The reference program is read one operation at a time, always at an index given by explicit coordinates
`(g : Fin 1024)`, `(i j r : Fin 16)`, `(c : Fin 2048)`:

* the reshape `[4096, 2048, 4] → [1024, 4, 2048, 4]`, the transposition `(0, 3, 1, 2)` and the reshape to
  `[1024, 16, 2048]` put `x[4·g + r mod 4, c, r / 4]` at `(g, r, c)`: row `r` of group `g`;
* the row's sum of squares, its square root and the maximum with `ε` are the clamped norm; the quotient is the
  normalised row; the contraction over `c` of two normalised rows of one group is their inner product;
* the two masks depend on no input: the label of row `k` is `k / 4` (a `[4]` iota copied along a second axis and
  flattened), two labels are compared as 32-bit words, and the diagonal compares the two coordinates as 32-bit words;
  a comparison's bit read as a number is `1` or `0`;
* the logits are the inner products divided by the temperature word; the row sum of their exponentials over the
  negative pairs plus the pair's own exponential goes under the logarithm; the difference is weighted by the
  positive-pair mask;
* the two total sums start from the zero word, and a sum over every index of an array is the iterated sum over its
  coordinates.

Nothing here needs a finite entry: every step is a re-reading of the same extended-real term.
-/

noncomputable section

open scoped BigOperators

namespace Cert.ReferenceIdeal.RefValue

open Cert.ReferenceIdeal Cert.ReferenceIdeal.Gen Cert.ReferenceIdeal.Read Idealize.ShloMosaic Idealize.ShloMosaic.ValueIdx
open Cert.GroupLoss

/-- The rearranged input at `(g, r, c)` is `x[4·g + r mod 4, c, r / 4]`: with `N = (16·g + r)·2048 + c` the flat position in
    `[1024, 16, 2048]`, the coordinates in `[1024, 4, 4, 2048]` are `(N / 32768, N / 8192 mod 4, N / 2048 mod 4, N mod 2048)
    = (g, r / 4, r mod 4, c)`; the transposition's source is `(g, r mod 4, c, r / 4)` in `[1024, 4, 2048, 4]`, whose flat
    position `((4·g + r mod 4)·2048 + c)·4 + r / 4` has coordinates `(4·g + r mod 4, c, r / 4)` in `[4096, 2048, 4]`. -/
theorem v2_at (x0 : (⟨S4096x2048x4, .f32⟩ : BufTy).Contents (Elt Ideal)) (g : Fin 1024) (r : Fin 16) (c : Fin 2048) :
    Read.val_main_v2 (F := Ideal) x0 (ix3 g r c) = grp x0 g r c := by
  rw [val_main_v2_apply, val_main_v1_apply, val_main_v0_apply]
  unfold grp
  refine congrArg x0 (funext fun a => Fin.ext ?_)
  have hg := g.isLt
  have hr := r.isLt
  have hc := c.isLt
  have e0 : ((g.val * 16 + r.val) * 2048 + c.val) / 32768 = g.val := by omega
  have e1 : ((g.val * 16 + r.val) * 2048 + c.val) / 2048 % 4 = r.val % 4 := by omega
  have e2 : ((g.val * 16 + r.val) * 2048 + c.val) % 2048 = c.val := by omega
  have e3 : ((g.val * 16 + r.val) * 2048 + c.val) / 8192 % 4 = r.val / 4 := by omega
  match a with
  | ⟨0, _⟩ =>
    show ((((((g.val * 16 + r.val) * 2048 + c.val) / 32768) * 4 + (((g.val * 16 + r.val) * 2048 + c.val) / 2048 % 4)) * 2048 + (((g.val * 16 + r.val) * 2048 + c.val) % 2048)) * 4 + (((g.val * 16 + r.val) * 2048 + c.val) / 8192 % 4)) / 8192 = g.val * 4 + r.val % 4
    rw [e0, e1, e2, e3]
    clear e0 e1 e2 e3
    omega
  | ⟨1, _⟩ =>
    show ((((((g.val * 16 + r.val) * 2048 + c.val) / 32768) * 4 + (((g.val * 16 + r.val) * 2048 + c.val) / 2048 % 4)) * 2048 + (((g.val * 16 + r.val) * 2048 + c.val) % 2048)) * 4 + (((g.val * 16 + r.val) * 2048 + c.val) / 8192 % 4)) / 4 % 2048 = c.val
    rw [e0, e1, e2, e3]
    clear e0 e1 e2 e3
    have hq : r.val / 4 < 4 := by omega
    have hm : r.val % 4 < 4 := by omega
    generalize r.val / 4 = q at hq ⊢
    generalize r.val % 4 = m at hm ⊢
    have h4 : (((g.val * 4 + m) * 2048 + c.val) * 4 + q) / 4 = (g.val * 4 + m) * 2048 + c.val := by omega
    rw [h4]
    omega
  | ⟨2, _⟩ =>
    show ((((((g.val * 16 + r.val) * 2048 + c.val) / 32768) * 4 + (((g.val * 16 + r.val) * 2048 + c.val) / 2048 % 4)) * 2048 + (((g.val * 16 + r.val) * 2048 + c.val) % 2048)) * 4 + (((g.val * 16 + r.val) * 2048 + c.val) / 8192 % 4)) % 4 = r.val / 4
    rw [e0, e1, e2, e3]
    clear e0 e1 e2 e3
    omega

/-- The clamped norm of row `r` of group `g`: the square root of the row's sum of squares (a sum from the zero word), or
    `ε` if that is larger. -/
theorem v5_at (x0 : (⟨S4096x2048x4, .f32⟩ : BufTy).Contents (Elt Ideal)) (g : Fin 1024) (r : Fin 16) :
    Read.val_main_v5 (F := Ideal) x0 (ix3 g r (0 : Fin 1)) = nrm (grp x0 g) r := by
  rw [val_main_v5_apply, val_main_v3_apply, val_main_call0_v2_apply, val_main_call0_v1_apply, val_main_v4_apply,
    val_main_cst_apply, val_main_call0_cst_apply]
  simp only [Ideal.maximumf_def, Ideal.hostUnary_sqrt_def, Ideal.ofBits_def, Ideal.ofBits_zero_f32, zero_add]
  unfold nrm
  refine congrArg (fun s => max (Ideal.sqrt s) eps) (Finset.sum_congr rfl fun k _ => ?_)
  have ek : idx_main_call0_v1 (idx_main_call0_v2 (ix3 g r (0 : Fin 1))) k = ix3 g r k :=
    funext fun a => Fin.ext (by match a with | ⟨0, _⟩ => rfl | ⟨1, _⟩ => rfl | ⟨2, _⟩ => rfl)
  rw [ek, val_main_call0_v0_apply, v2_at, Ideal.mulf_def]

/-- The normalised row: the entry divided by its row's clamped norm, the norm copied along the row. -/
theorem v7_at (x0 : (⟨S4096x2048x4, .f32⟩ : BufTy).Contents (Elt Ideal)) (g : Fin 1024) (r : Fin 16) (c : Fin 2048) :
    Read.val_main_v7 (F := Ideal) x0 (ix3 g r c) = Cert.GroupLoss.unit (grp x0 g) r c := by
  have e6 : idx_main_v6 (ix3 g r c) = ix3 g r (0 : Fin 1) :=
    funext fun a => Fin.ext (by match a with | ⟨0, _⟩ => rfl | ⟨1, _⟩ => rfl | ⟨2, _⟩ => rfl)
  rw [val_main_v7_apply, val_main_v6_apply, e6, v5_at, v2_at, Ideal.hostDivf_def]
  rfl

/-- The contraction over the row coordinate of rows `i` and `j` of one group is their inner product. -/
theorem v26_at (x0 : (⟨S4096x2048x4, .f32⟩ : BufTy).Contents (Elt Ideal)) (g : Fin 1024) (i j : Fin 16) :
    Read.val_main_v26 (F := Ideal) x0 (ix3 g i j) = Cert.GroupLoss.cos (grp x0 g) i j := by
  rw [val_main_v26_apply]
  unfold Cert.GroupLoss.cos
  refine Finset.sum_congr rfl fun k _ => ?_
  have el : lidx_main_v26 (ix3 g i j) k = ix3 g i k :=
    funext fun a => Fin.ext (by match a with | ⟨0, _⟩ => rfl | ⟨1, _⟩ => rfl | ⟨2, _⟩ => rfl)
  have er : ridx_main_v26 (ix3 g i j) k = ix3 g j k :=
    funext fun a => Fin.ext (by match a with | ⟨0, _⟩ => rfl | ⟨1, _⟩ => rfl | ⟨2, _⟩ => rfl)
  rw [el, er, v7_at, v7_at]

/-- Two labels below 4 are equal as 32-bit words exactly when they are equal as numbers. -/
theorem label_word : ∀ i j : Fin 16,
    IntOp.cmpi .eq (BitVec.ofNat 32 (i.val / 4)) (BitVec.ofNat 32 (j.val / 4)) = if i.val / 4 = j.val / 4 then 1#1 else 0#1 := by
  decide +kernel

/-- Two coordinates below 16, the first with the zero word added, are equal as 32-bit words exactly when they are equal. -/
theorem diag_word : ∀ i j : Fin 16,
    IntOp.cmpi .eq (IntOp.addi (BitVec.ofNat 32 i.val) 0#32) (BitVec.ofNat 32 j.val) = if i = j then 1#1 else 0#1 := by
  decide +kernel

/-- The same-label mask: row `k`'s label is `k / 4` (entry `(k / 4, k mod 4)` of the `[4]` iota copied along a second
    axis), and the bit of "the labels are equal" is read as the number `1` or `0`. -/
theorem v16_at (i j : Fin 16) : Read.val_main_v16 (F := Ideal) (ix2 i j) = same i j := by
  rw [val_main_v16_apply, val_main_v15_apply, val_main_v13_apply, val_main_v11_apply, val_main_v14_apply, val_main_v12_apply,
    val_main_v10_apply, val_main_v10_apply, val_main_v9_apply, val_main_v9_apply, val_main_v8_apply, val_main_v8_apply]
  show (((IntOp.cmpi .eq (BitVec.ofNat 32 (i.val / 4)) (BitVec.ofNat 32 (j.val / 4))).toNat : ℝ) : EReal) = _
  rw [label_word]
  unfold same
  split_ifs <;> simp

/-- The diagonal mask: the bit of "the two coordinates are equal", read as a number. -/
theorem v22_at (i j : Fin 16) : Read.val_main_v22 (F := Ideal) (ix2 i j) = eye i j := by
  rw [val_main_v22_apply, val_main_v21_apply, val_main_v20_apply, val_main_v17_apply, val_main_v19_apply, val_main_c_apply,
    val_main_v18_apply]
  show (((IntOp.cmpi .eq (IntOp.addi (BitVec.ofNat 32 i.val) 0#32) (BitVec.ofNat 32 j.val)).toNat : ℝ) : EReal) = _
  rw [diag_word]
  unfold eye
  split_ifs <;> simp

/-- The positive pairs: same label, times one minus the diagonal (the word `0x3F800000` is one). -/
theorem v25_at (i j : Fin 16) : Read.val_main_v25 (F := Ideal) (ix2 i j) = mpos i j := by
  rw [val_main_v25_apply, val_main_v24_apply, val_main_v23_apply, val_main_cst_0_apply, v16_at, v22_at]
  simp only [Ideal.mulf_def, Ideal.subf_def, Ideal.ofBits_def, Ideal.ofBits_one_f32]
  rfl

/-- The negative pairs: one minus the same-label mask. -/
theorem v31_at (i j : Fin 16) : Read.val_main_v31 (F := Ideal) (ix2 i j) = anti i j := by
  rw [val_main_v31_apply, val_main_v30_apply, val_main_cst_2_apply, v16_at]
  simp only [Ideal.subf_def, Ideal.ofBits_def, Ideal.ofBits_one_f32]
  rfl

/-- The logits: the inner products divided by the temperature word. -/
theorem v28_at (x0 : (⟨S4096x2048x4, .f32⟩ : BufTy).Contents (Elt Ideal)) (g : Fin 1024) (i j : Fin 16) :
    Read.val_main_v28 (F := Ideal) x0 (ix3 g i j) = Ideal.div (Cert.GroupLoss.cos (grp x0 g) i j) temp := by
  rw [val_main_v28_apply, val_main_v27_apply, val_main_cst_1_apply, v26_at, Ideal.hostDivf_def, Ideal.ofBits_def]

/-- Their exponentials. -/
theorem v29_at (x0 : (⟨S4096x2048x4, .f32⟩ : BufTy).Contents (Elt Ideal)) (g : Fin 1024) (i j : Fin 16) :
    Read.val_main_v29 (F := Ideal) x0 (ix3 g i j) = Ideal.exp (Ideal.div (Cert.GroupLoss.cos (grp x0 g) i j) temp) := by
  rw [val_main_v29_apply, v28_at, Ideal.hostUnary_exp_def]

/-- The negative-pair mask copied to every group. -/
theorem v33_at (g : Fin 1024) (i j : Fin 16) : Read.val_main_v33 (F := Ideal) (ix3 g i j) = anti i j := by
  have e : idx_main_v32 (idx_main_v33 (ix3 g i j)) = ix2 i j :=
    funext fun a => Fin.ext (by match a with | ⟨0, _⟩ => rfl | ⟨1, _⟩ => rfl)
  rw [val_main_v33_apply, val_main_v32_apply, e, v31_at]

/-- The positive-pair mask copied to every group. -/
theorem v42_at (g : Fin 1024) (i j : Fin 16) : Read.val_main_v42 (F := Ideal) (ix3 g i j) = mpos i j := by
  have e : idx_main_v41 (idx_main_v42 (ix3 g i j)) = ix2 i j :=
    funext fun a => Fin.ext (by match a with | ⟨0, _⟩ => rfl | ⟨1, _⟩ => rfl)
  rw [val_main_v42_apply, val_main_v41_apply, e, v25_at]

/-- The row sum of the exponentials over the negative pairs (a sum from the zero word), copied along the row. -/
theorem v37_at (x0 : (⟨S4096x2048x4, .f32⟩ : BufTy).Contents (Elt Ideal)) (g : Fin 1024) (i j : Fin 16) :
    Read.val_main_v37 (F := Ideal) x0 (ix3 g i j)
      = ∑ k : Fin 16, Ideal.exp (Ideal.div (Cert.GroupLoss.cos (grp x0 g) i k) temp) * anti i k := by
  rw [val_main_v37_apply, val_main_v36_apply, val_main_v35_apply, val_main_cst_3_apply]
  simp only [Ideal.ofBits_def, Ideal.ofBits_zero_f32, zero_add]
  refine Finset.sum_congr rfl fun k _ => ?_
  have e : idx_main_v35 (idx_main_v36 (idx_main_v37 (ix3 g i j))) k = ix3 g i k :=
    funext fun a => Fin.ext (by match a with | ⟨0, _⟩ => rfl | ⟨1, _⟩ => rfl | ⟨2, _⟩ => rfl)
  rw [e, val_main_v34_apply, v29_at, v33_at, Ideal.mulf_def]

/-- The weighted log-probability of the pair `(i, j)` in group `g`. -/
theorem v43_at (x0 : (⟨S4096x2048x4, .f32⟩ : BufTy).Contents (Elt Ideal)) (g : Fin 1024) (i j : Fin 16) :
    Read.val_main_v43 (F := Ideal) x0 (ix3 g i j)
      = lp (fun k => Ideal.div (Cert.GroupLoss.cos (grp x0 g) i k) temp) (anti i) j * mpos i j := by
  rw [val_main_v43_apply, val_main_v40_apply, val_main_v39_apply, val_main_v38_apply, v28_at, v29_at, v37_at, v42_at]
  simp only [Ideal.mulf_def, Ideal.subf_def, Ideal.addf_def, Ideal.hostUnary_log_def]
  rfl

/-- The reference's result: minus the sum over the groups of the group's loss, divided by the number of positive pairs
    (each total sum starts from the zero word and runs over the array's coordinates). -/
theorem ref_value (x0 : (⟨S4096x2048x4, .f32⟩ : BufTy).Contents (Elt Ideal)) :
    Read.val_main_v47 (F := Ideal) x0 = fun _ =>
      Ideal.div (-(∑ g : Fin 1024, Cert.GroupLoss.lossDiv (Cert.GroupLoss.grp x0 g)))
        (∑ i : Fin 16, ∑ j : Fin 16, Cert.GroupLoss.mpos i j) := by
  funext q
  rw [val_main_v47_apply, val_main_v45_apply, val_main_v44_apply, val_main_v46_apply, val_main_cst_4_apply,
    val_main_cst_5_apply]
  simp only [Ideal.hostDivf_def, Ideal.hostNegf_def, Ideal.negf_def, Ideal.ofBits_def, Ideal.ofBits_zero_f32, zero_add]
  rw [Cert.IndexSums.sum_idx3, sum_idx2]
  simp only [v43_at, v25_at]
  rfl

end Cert.ReferenceIdeal.RefValue

end
-- ==== Proof.KernelLayout.lean ====
import proofs.«168382_j3461743640727_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The body's non-pointwise operations read at an index

Over explicit coordinates `(g, i, j)` of a block of 64 groups: the batched product of the normalised rows with
themselves as a sum over the 2048 columns, the keepdims casts and broadcasts between `[64,16]`, `[64,16,1]` and
`[64,16,n]`, the mask's lift `[16,16] → [1,16,16] → [64,16,16]`, and the lane, row and group reductions as finite sums
(a row maximum as a fold of `max`).
-/

noncomputable section

open scoped BigOperators
open Idealize.ShloMosaic Idealize.ShloMosaic.TcCoe Idealize.ShloMosaic.ValueIdx

namespace Cert.KernelIdeal.KLayout

open Cert.KernelIdeal Cert.KernelIdeal.Gen

variable {α : Type}

/-! ## The batched product -/

theorem lhs0 (i : S64x16x16.Idx) (q : dot_S64x16x2048_S64x16x2048_S64x16x16_2_2_1_1_0_0.contr.Idx) :
    (dot_S64x16x2048_S64x16x2048_S64x16x16_2_2_1_1_0_0.lhsIdx i q 0).val = (i 0).val := by
  unfold DotDims.lhsIdx
  rw [dif_pos (show (0 : Fin S64x16x2048.rank) ∈ dot_S64x16x2048_S64x16x2048_S64x16x16_2_2_1_1_0_0.lhsBatch by decide)]
  rfl
theorem lhs1 (i : S64x16x16.Idx) (q : dot_S64x16x2048_S64x16x2048_S64x16x16_2_2_1_1_0_0.contr.Idx) :
    (dot_S64x16x2048_S64x16x2048_S64x16x16_2_2_1_1_0_0.lhsIdx i q 1).val = (i 1).val := by
  unfold DotDims.lhsIdx
  rw [dif_neg (show ¬(1 : Fin S64x16x2048.rank) ∈ dot_S64x16x2048_S64x16x2048_S64x16x16_2_2_1_1_0_0.lhsBatch by decide), dif_pos (show (1 : Fin S64x16x2048.rank) ∈ dot_S64x16x2048_S64x16x2048_S64x16x16_2_2_1_1_0_0.lhsNonContracting by decide)]
  rfl
theorem lhs2 (i : S64x16x16.Idx) (q : dot_S64x16x2048_S64x16x2048_S64x16x16_2_2_1_1_0_0.contr.Idx) :
    (dot_S64x16x2048_S64x16x2048_S64x16x16_2_2_1_1_0_0.lhsIdx i q 2).val = (q ⟨0, by decide⟩).val :=
  dot_S64x16x2048_S64x16x2048_S64x16x16_2_2_1_1_0_0.lhsIdx_val_of_single rfl i q
theorem rhs0 (i : S64x16x16.Idx) (q : dot_S64x16x2048_S64x16x2048_S64x16x16_2_2_1_1_0_0.contr.Idx) :
    (dot_S64x16x2048_S64x16x2048_S64x16x16_2_2_1_1_0_0.rhsIdx i q 0).val = (i 0).val := by
  unfold DotDims.rhsIdx
  rw [dif_pos (show (0 : Fin S64x16x2048.rank) ∈ dot_S64x16x2048_S64x16x2048_S64x16x16_2_2_1_1_0_0.rhsBatch by decide)]
  rfl
theorem rhs1 (i : S64x16x16.Idx) (q : dot_S64x16x2048_S64x16x2048_S64x16x16_2_2_1_1_0_0.contr.Idx) :
    (dot_S64x16x2048_S64x16x2048_S64x16x16_2_2_1_1_0_0.rhsIdx i q 1).val = (i 2).val := by
  unfold DotDims.rhsIdx
  rw [dif_neg (show ¬(1 : Fin S64x16x2048.rank) ∈ dot_S64x16x2048_S64x16x2048_S64x16x16_2_2_1_1_0_0.rhsBatch by decide), dif_pos (show (1 : Fin S64x16x2048.rank) ∈ dot_S64x16x2048_S64x16x2048_S64x16x16_2_2_1_1_0_0.rhsNonContracting by decide)]
  rfl
theorem rhs2 (i : S64x16x16.Idx) (q : dot_S64x16x2048_S64x16x2048_S64x16x16_2_2_1_1_0_0.contr.Idx) :
    (dot_S64x16x2048_S64x16x2048_S64x16x16_2_2_1_1_0_0.rhsIdx i q 2).val = (q ⟨0, by decide⟩).val :=
  dot_S64x16x2048_S64x16x2048_S64x16x16_2_2_1_1_0_0.rhsIdx_val_of_single rfl i q

/-- Entry `(g, i, j)` of the batched product `A · Bᵀ` into the zero accumulator: the sum over the columns `k` of
    `A (g, i, k) · B (g, j, k)`. -/
theorem gram_apply (A B : FVec Ideal S64x16x2048 .bf16) (g : Fin 64) (i j : Fin 16) :
    matmul dot_S64x16x2048_S64x16x2048_S64x16x16_2_2_1_1_0_0 none A B (constant (F := Ideal) S64x16x16 .f32 0x00000000#32) (ix3 g i j)
      = ∑ k : Fin 2048, A (ix3 g i k) * B (ix3 g j k) := by
  simp only [matmul]
  rw [Ideal.matmul_constant_zero_apply, ← Equiv.sum_comp (ValueIdx.contrEquiv1 dot_S64x16x2048_S64x16x2048_S64x16x16_2_2_1_1_0_0 2048 rfl rfl).symm]
  refine Finset.sum_congr rfl fun k _ => ?_
  have hk := ValueIdx.contrEquiv1_symm_val dot_S64x16x2048_S64x16x2048_S64x16x16_2_2_1_1_0_0 2048 rfl rfl k
  have el : dot_S64x16x2048_S64x16x2048_S64x16x16_2_2_1_1_0_0.lhsIdx (ix3 g i j) ((ValueIdx.contrEquiv1 dot_S64x16x2048_S64x16x2048_S64x16x16_2_2_1_1_0_0 2048 rfl rfl).symm k) = ix3 g i k := funext fun a => Fin.ext (by
    match a with
    | ⟨0, _⟩ => exact lhs0 _ _
    | ⟨1, _⟩ => exact lhs1 _ _
    | ⟨2, _⟩ => exact (lhs2 _ _).trans hk)
  have er : dot_S64x16x2048_S64x16x2048_S64x16x16_2_2_1_1_0_0.rhsIdx (ix3 g i j) ((ValueIdx.contrEquiv1 dot_S64x16x2048_S64x16x2048_S64x16x16_2_2_1_1_0_0 2048 rfl rfl).symm k) = ix3 g j k := funext fun a => Fin.ext (by
    match a with
    | ⟨0, _⟩ => exact rhs0 _ _
    | ⟨1, _⟩ => exact rhs1 _ _
    | ⟨2, _⟩ => exact (rhs2 _ _).trans hk)
  rw [el, er]

/-! ## Keepdims casts and broadcasts -/

/-- `[64,16] → [64,16,1]`: entry `(g, i, 0)` is entry `(g, i)`. -/
theorem keep_apply (v : S64x16.Idx → α) (g : Fin 64) (i : Fin 16) (z : Fin 1) :
    shapeCast S64x16x1 v shapeCasts_S64x16_S64x16x1 (ix3 g i z) = v (ix2 g i) :=
  shapeCast_apply v shapeCasts_S64x16_S64x16x1 (ix3 g i z) (ix2 g i) (by
    rw [Shape.rowMajor_val_two, Shape.rowMajor_val_three]
    have := z.isLt
    show g.val * 16 + i.val = (g.val * 16 + i.val) * 1 + z.val
    omega)

/-- `[64,16,1] → [64,16,2048]`: every column of row `(g, i)` is the row's one entry. -/
theorem wide_apply (v : S64x16x1.Idx → α) (g : Fin 64) (i : Fin 16) (k : Fin 2048) :
    broadcastTo S64x16x2048 v broadcasts_S64x16x1_S64x16x2048 (ix3 g i k) = v (ix3 g i 0) :=
  broadcastTo_apply v broadcasts_S64x16x1_S64x16x2048 (ix3 g i k) (ix3 g i 0) (fun a => by
    match a with
    | ⟨0, _⟩ => rfl
    | ⟨1, _⟩ => rfl
    | ⟨2, _⟩ => rfl)

/-- `[64,16,1] → [64,16,16]`: the same along a row of the 16 × 16 matrix. -/
theorem row_apply (v : S64x16x1.Idx → α) (g : Fin 64) (i j : Fin 16) :
    broadcastTo S64x16x16 v broadcasts_S64x16x1_S64x16x16 (ix3 g i j) = v (ix3 g i 0) :=
  broadcastTo_apply v broadcasts_S64x16x1_S64x16x16 (ix3 g i j) (ix3 g i 0) (fun a => by
    match a with
    | ⟨0, _⟩ => rfl
    | ⟨1, _⟩ => rfl
    | ⟨2, _⟩ => rfl)

/-- A 16 × 16 mask lifted to every group: `[16,16] → [1,16,16] → [64,16,16]` at `(g, i, j)` is the mask at `(i, j)`. -/
theorem mask_apply (v : S16x16.Idx → α) (g : Fin 64) (i j : Fin 16) :
    broadcastTo S64x16x16 (shapeCast S1x16x16 v shapeCasts_S16x16_S1x16x16) broadcasts_S1x16x16_S64x16x16 (ix3 g i j) = v (ix2 i j) := by
  rw [broadcastTo_apply _ broadcasts_S1x16x16_S64x16x16 (ix3 g i j) (ix3 (0 : Fin 1) i j) (fun a => by
    match a with
    | ⟨0, _⟩ => rfl
    | ⟨1, _⟩ => rfl
    | ⟨2, _⟩ => rfl)]
  exact shapeCast_apply v shapeCasts_S16x16_S1x16x16 (ix3 (0 : Fin 1) i j) (ix2 i j) (by
    rw [Shape.rowMajor_val_two, Shape.rowMajor_val_three]
    show i.val * 16 + j.val = ((0 : Fin 1).val * 16 + i.val) * 16 + j.val
    simp)

/-- `[64,1] → [64,1,1]`. -/
theorem keep1_apply (v : S64x1.Idx → α) (g : Fin 64) (z z' : Fin 1) :
    shapeCast S64x1x1 v shapeCasts_S64x1_S64x1x1 (ix3 g z z') = v (ix2 g z) :=
  shapeCast_apply v shapeCasts_S64x1_S64x1x1 (ix3 g z z') (ix2 g z) (by
    rw [Shape.rowMajor_val_two, Shape.rowMajor_val_three]
    have := z'.isLt
    show g.val * 1 + z.val = (g.val * 1 + z.val) * 1 + z'.val
    omega)

/-- `[1,1] → [1,1,1] → [1,1]` changes nothing. -/
theorem unit_casts_apply (v : S1x1.Idx → α) (j : S1x1.Idx) :
    shapeCast S1x1 (shapeCast S1x1x1 v shapeCasts_S1x1_S1x1x1) shapeCasts_S1x1x1_S1x1 j = v j := by
  have e0 : ∀ (n : Nat) (z : Fin 1) , z.val = 0 := fun _ z => by omega
  rw [shapeCast_apply _ shapeCasts_S1x1x1_S1x1 j (ix3 (0 : Fin 1) (0 : Fin 1) (0 : Fin 1)) (by
    rw [Shape.rowMajor_val_two, Shape.rowMajor_val_three]
    have h0 : (j 0).val < 1 := (j 0).isLt
    have h1 : (j 1).val < 1 := (j 1).isLt
    show ((0 : Fin 1).val * 1 + (0 : Fin 1).val) * 1 + (0 : Fin 1).val = (j 0).val * 1 + (j 1).val
    simp; omega)]
  exact shapeCast_apply v shapeCasts_S1x1_S1x1x1 (ix3 (0 : Fin 1) (0 : Fin 1) (0 : Fin 1)) j (by
    rw [Shape.rowMajor_val_two, Shape.rowMajor_val_three]
    have h0 : (j 0).val < 1 := (j 0).isLt
    have h1 : (j 1).val < 1 := (j 1).isLt
    show (j 0).val * 1 + (j 1).val = ((0 : Fin 1).val * 1 + (0 : Fin 1).val) * 1 + (0 : Fin 1).val
    simp; omega)

/-! ## The reductions -/

/-- The sum of a row's 2048 squares. -/
theorem laneSum_apply (v : FVec Ideal S64x16x2048 .f32) (g : Fin 64) (i : Fin 16) :
    multiReduction .add [2] S64x16 v 0x00000000#32 reduces_S64x16x2048_S64x16 (.inl rfl) rfl (ix2 g i)
      = ∑ k : Fin 2048, v (ix3 g i k) :=
  (Ideal.multiReduction_add_single v 0x00000000#32 reduces_S64x16x2048_S64x16 (.inl rfl) rfl (ix2 g i)).trans
    (Finset.sum_congr rfl fun k _ => congrArg v (funext fun a => by
      match a with
      | ⟨0, _⟩ => rfl
      | ⟨1, _⟩ => rfl
      | ⟨2, _⟩ => rfl))

/-- The sum along a row of the 16 × 16 matrix. -/
theorem rowSum_apply (v : FVec Ideal S64x16x16 .f32) (g : Fin 64) (i : Fin 16) :
    multiReduction .add [2] S64x16 v 0x00000000#32 reduces_S64x16x16_S64x16 (.inl rfl) rfl (ix2 g i)
      = ∑ k : Fin 16, v (ix3 g i k) :=
  (Ideal.multiReduction_add_single v 0x00000000#32 reduces_S64x16x16_S64x16 (.inl rfl) rfl (ix2 g i)).trans
    (Finset.sum_congr rfl fun k _ => congrArg v (funext fun a => by
      match a with
      | ⟨0, _⟩ => rfl
      | ⟨1, _⟩ => rfl
      | ⟨2, _⟩ => rfl))

/-- The maximum along a row of the 16 × 16 matrix: the fold of `max` from the word for `-∞`. -/
theorem rowMax_apply (v : FVec Ideal S64x16x16 .f32) (g : Fin 64) (i : Fin 16) :
    multiReduction .maximumf [2] S64x16 v 0xFF800000#32 reduces_S64x16x16_S64x16 (.inl rfl) rfl (ix2 g i)
      = (Finset.univ : Finset (Fin 16)).fold max (Ideal.ofBits .f32 0xFF800000#32) (fun k => v (ix3 g i k)) :=
  (Ideal.multiReduction_maximumf_single v 0xFF800000#32 reduces_S64x16x16_S64x16 (.inl rfl) rfl (ix2 g i)).trans
    (congrArg (fun f => (Finset.univ : Finset (Fin 16)).fold max (Ideal.ofBits .f32 0xFF800000#32) f) (funext fun k =>
      congrArg v (funext fun a => by
        match a with
        | ⟨0, _⟩ => rfl
        | ⟨1, _⟩ => rfl
        | ⟨2, _⟩ => rfl)))

/-- The sum over a group's 16 rows. -/
theorem groupSum_apply (v : FVec Ideal S64x16x1 .f32) (g : Fin 64) (z : Fin 1) :
    multiReduction .add [1] S64x1 v 0x00000000#32 reduces_S64x16x1_S64x1 (.inl rfl) rfl (ix2 g z)
      = ∑ i : Fin 16, v (ix3 g i z) :=
  (Ideal.multiReduction_add_single v 0x00000000#32 reduces_S64x16x1_S64x1 (.inl rfl) rfl (ix2 g z)).trans
    (Finset.sum_congr rfl fun k _ => congrArg v (funext fun a => by
      match a with
      | ⟨0, _⟩ => rfl
      | ⟨1, _⟩ => rfl
      | ⟨2, _⟩ => rfl))

/-- The sum over the block's 64 groups. -/
theorem blockSum_apply (v : FVec Ideal S64x1x1 .f32) (z z' : Fin 1) :
    multiReduction .add [0] S1x1 v 0x00000000#32 reduces_S64x1x1_S1x1 (.inl rfl) rfl (ix2 z z')
      = ∑ g : Fin 64, v (ix3 g z z') :=
  (Ideal.multiReduction_add_single v 0x00000000#32 reduces_S64x1x1_S1x1 (.inl rfl) rfl (ix2 z z')).trans
    (Finset.sum_congr rfl fun k _ => congrArg v (funext fun a => by
      match a with
      | ⟨0, _⟩ => rfl
      | ⟨1, _⟩ => rfl
      | ⟨2, _⟩ => rfl))

end Cert.KernelIdeal.KLayout

end
-- ==== Proof.KernelMasks.lean ====
import proofs.«168382_j3461743640727_2_alg».proof.Proof.Gen.KernelIdeal.Skeleton
import proofs.«168382_j3461743640727_2_alg».proof.Proof.Spec
import Idealize.ShloMosaic.Lib.ValueIdx
import Idealize.ShloMosaic.PureOps.Ideal.Laws

/-!
# The kernel's three 16 × 16 masks, read at an index

The kernel builds three masks from the row number `i` and the column number `j` of a 16 × 16 tile alone, no
input entering: "same label" (`⌊i/4⌋ = ⌊j/4⌋`), the positive pairs (same label and `i ≠ j`) and the negative pairs
(different labels). The labels are floor divisions by 4 spelt on 32-bit words as a quotient rounded toward zero
with a correction by one where the signs of dividend and divisor differ and the remainder is not zero. On the
sixteen words `0 … 15` the correction never fires and the label word is the word of `k / 4`; the comparisons are
then decided on the sixteen (or 256) cases, and the one-bit answers, widened and converted, are the extended
reals `1` and `0` the specification's masks are made of.
-/

noncomputable section

namespace Cert.KernelIdeal.KMask

open Idealize.ShloMosaic Idealize.ShloMosaic.ValueIdx
open Cert.KernelIdeal Cert.KernelIdeal.Gen

/-- The row number of each element of the tile, as a 32-bit word. -/
abbrev rowIota : IVec S16x16 32 := iota .tc S16x16 32 [0] iota_S16x16_d0_w32
/-- The column number of each element of the tile, as a 32-bit word. -/
abbrev colIota : IVec S16x16 32 := iota .tc S16x16 32 [1] iota_S16x16_d1_w32

/-! ## The words -/

/-- The floor division by 4 of one 32-bit word, as both label chains spell it: the quotient `q` rounded toward
    zero; the sign of `x` (`[x > 0] − [x < 0]`) against the sign of the divisor 4; where they differ and the
    remainder is not zero, `q − 1`, else `q`. -/
def labelW (x : BitVec 32) : BitVec 32 :=
  let q := IntOp.divsi .vector x 4#32
  let sx := IntOp.subi ((IntOp.cmpi .sgt x 0#32).setWidth 32) ((IntOp.cmpi .slt x 0#32).setWidth 32)
  let sd := Scalar.subi (Scalar.extui (Scalar.cmpi .sgt 4#32 0#32)) (Scalar.extui (Scalar.cmpi .slt 4#32 0#32))
  let c := IntOp.andi (IntOp.cmpi .ne sx sd) (IntOp.cmpi .ne (IntOp.remsi .vector x 4#32) 0#32)
  Scalar.select c (IntOp.subi q 1#32) q

/-- The word of the number `k` as the iota writes it: the row-major number over one listed axis. -/
abbrev wordOf (k : Fin 16) : BitVec 32 := BitVec.ofNat 32 (0 * 16 + k.val)

/-- The row iota at `(i, j)` is the word of `i`. -/
theorem rowIota_apply (i j : Fin 16) : rowIota (ix2 i j) = wordOf i := rfl
/-- The column iota at `(i, j)` is the word of `j`. -/
theorem colIota_apply (i j : Fin 16) : colIota (ix2 i j) = wordOf j := rfl

/-- The row label at `(i, j)` is the floor-division chain on the word of `i`. -/
theorem pay5_apply (i j : Fin 16) : k0_pay5 (ix2 i j) = labelW (wordOf i) := rfl

/-- On the sixteen words `0 … 15` the chain gives the word of `k / 4`: the dividend and the divisor are both
    non-negative, so no correction. -/
theorem labelW_wordOf : ∀ k : Fin 16, labelW (wordOf k) = BitVec.ofNat 32 (k.val / 4) := by decide

/-- Two label words agree exactly when the labels do. -/
theorem labelBit : ∀ i j : Fin 16,
    IntOp.cmpi .eq (BitVec.ofNat 32 (i.val / 4)) (BitVec.ofNat 32 (j.val / 4))
      = if i.val / 4 = j.val / 4 then 1#1 else 0#1 := by decide

/-- Two index words agree exactly when the indices do. -/
theorem eyeBit : ∀ i j : Fin 16,
    IntOp.cmpi .eq (wordOf i) (wordOf j) = if i = j then 1#1 else 0#1 := by decide

/-- The "same label" bit at `(i, j)`. -/
theorem sameBit (i j : Fin 16) :
    IntOp.cmpi .eq (labelW (wordOf i)) (labelW (wordOf j)) = if i.val / 4 = j.val / 4 then 1#1 else 0#1 := by
  rw [labelW_wordOf, labelW_wordOf, labelBit]

/-! ## A one-bit word, widened and converted -/

/-- The extended real a one-bit condition becomes: widened to 32 bits without sign and read as a signed
    integer. -/
def bitVal (b : BitVec 1) : EReal := (((b.setWidth 32).toInt : ℝ) : EReal)

/-- The bit `1` becomes `1`. -/
theorem bitVal_one : bitVal 1#1 = 1 := by
  have h : ((1#1 : BitVec 1).setWidth 32).toInt = 1 := by decide
  simp [bitVal, h]
/-- The bit `0` becomes `0`. -/
theorem bitVal_zero : bitVal 0#1 = 0 := by
  have h : ((0#1 : BitVec 1).setWidth 32).toInt = 0 := by decide
  simp [bitVal, h]
/-- A decided condition becomes its indicator. -/
theorem bitVal_ite (p : Prop) [Decidable p] : bitVal (if p then 1#1 else 0#1) = if p then 1 else 0 := by
  split_ifs
  · exact bitVal_one
  · exact bitVal_zero

/-- The float constant `1.0`. -/
theorem one_f32 : (Scalar.ofBits .f32 0x3F800000#32 : Ideal .f32) = (1 : EReal) := by
  show Ideal.ofBits .f32 0x3F800000#32 = 1
  simp [Ideal.ofBits, Ideal.ieee, -EReal.coe_mul]; norm_num

/-! ## The three masks at an index -/

/-- The "same label" mask at `(i, j)`, down to its bit. -/
theorem pay6_apply (i j : Fin 16) :
    k0_pay6 (F := Ideal) colIota k0_pay5 (ix2 i j)
      = bitVal (IntOp.cmpi .eq (labelW (wordOf i)) (labelW (wordOf j))) := rfl

/-- THE "SAME LABEL" MASK at `(i, j)`: `1` where `⌊i/4⌋ = ⌊j/4⌋`, else `0`. -/
theorem same_apply (i j : Fin 16) :
    k0_pay6 (F := Ideal) colIota k0_pay5 (ix2 i j) = Cert.GroupLoss.same i j := by
  rw [pay6_apply, sameBit, bitVal_ite]
  rfl

/-- The positive-pair mask at `(i, j)`, down to the "same label" mask and the diagonal's bit. -/
theorem pay7_apply (i j : Fin 16) :
    k0_pay7 (F := Ideal) rowIota colIota k0_pay5 (ix2 i j)
      = k0_pay6 (F := Ideal) colIota k0_pay5 (ix2 i j)
        * ((Scalar.ofBits .f32 0x3F800000#32 : Ideal .f32) - bitVal (IntOp.cmpi .eq (wordOf i) (wordOf j))) := rfl

/-- THE POSITIVE PAIRS at `(i, j)`: same label, not the same row. -/
theorem mpos_apply (i j : Fin 16) :
    k0_pay7 (F := Ideal) rowIota colIota k0_pay5 (ix2 i j) = Cert.GroupLoss.mpos i j := by
  rw [pay7_apply, same_apply, eyeBit, bitVal_ite, one_f32]
  rfl

/-- THE NEGATIVE PAIRS at `(i, j)`: different labels. -/
theorem anti_apply (i j : Fin 16) :
    subf (broadcast S16x16 (Scalar.ofBits .f32 0x3F800000#32 : Ideal .f32)) (k0_pay6 (F := Ideal) colIota k0_pay5) (ix2 i j)
      = Cert.GroupLoss.anti i j := by
  rw [subf_apply, broadcast_apply, same_apply, one_f32]
  rfl

end Cert.KernelIdeal.KMask

end
-- ==== Proof.KernelPieces.lean ====
import proofs.«168382_j3461743640727_2_alg».proof.Proof.Gen.KernelIdeal.Frame
import Idealize.ShloMosaic.Lib.Pipeline.Value
import Idealize.ShloMosaic.Lib.Tactic

/-!
# What one grid point leaves behind

At every grid point the body adds the block's sum to the one-word scratch accumulator; at the first step of a core
the accumulator is cleared first, and at the last step the output block is written from it. Here the pieces the
symbolic run found for the scratch and for the output block are read back as the body's pure payloads: the
accumulator after a point is `step x acc`, the written block is `emit acc'`.
-/

set_option maxRecDepth 16384

noncomputable section

open Idealize.ShloMosaic Idealize.ShloMosaic.TcCoe Idealize.SL.Sem
open Idealize.ShloMosaic.Pipeline (Dat)

namespace Cert.KernelIdeal.KPieces

open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The row-index and column-index words of the 16 × 16 masks. -/
abbrev rowIota : IVec S16x16 32 := iota .tc S16x16 32 [0] iota_S16x16_d0_w32
abbrev colIota : IVec S16x16 32 := iota .tc S16x16 32 [1] iota_S16x16_d1_w32

/-- The accumulator after a point: the accumulator before it plus the sum, over the block's 64 groups, of the group
    losses (the body's one store into the scratch, as a function of the input block and the old accumulator). -/
def step (x : Vec F S64x16x2048 .bf16) (acc : Vec F S1x1 .f32) : Vec F S1x1 .f32 :=
  k0_pay1 (k0_pay7 rowIota colIota k0_pay5) (k0_pay8 (k0_pay4 x)) (k0_pay9 (k0_pay4 x))
    (k0_pay10 (k0_pay4 x) colIota k0_pay5) acc

/-- The cleared accumulator. -/
abbrev zeroAcc : Vec F S1x1 .f32 := k0_pay3

/-- The output block written at a core's last step: `(0 − acc) / 48` at entry (0, 0), zero elsewhere. -/
abbrev emit (acc : Vec F S1x1 .f32) : Vec F S8x128 .f32 := k0_pay2 acc

/-- A middle step: the accumulator becomes `step x acc`. -/
theorem sout_B (c : Dev nD) (i : grid0.Coords) (a2 : Memref sig .tc .vmem S64x16x2048 .bf16) (h2 : a2.IsWhole)
    (a3 : Memref sig .tc .vmem S8x128 .f32) (h3 : a3.IsWhole) (a4 : Memref sig .tc .vmem S1x1 .f32) (h4 : a4.IsWhole)
    (hc0 : ¬cond0_0 i) (hc1 : ¬cond0_1 i) (x0 : Vec F S64x16x2048 .bf16) (xs0 : Vec F S1x1 .f32) :
    sout0_B_0 c i a2 h2 a3 h3 a4 h4 hc0 hc1 x0 xs0 = step x0 xs0 := by
  unfold sout0_B_0
  rw [View.read_writes_eq_canon _ _ _ (scover0_B_0 c i a2 h2 a3 h3 a4 h4 hc0 hc1 x0 xs0)]
  unfold kernelRun0_B
  dsimp only
  sl_unfold_words
  rw [View.canon_unit_zero hz2]
  simp only [View.readAt_eq_ld, h4.read_unread, h2.read_unread, View.ld_unit_zero (S := S1x1) hz2,
    View.ld_unit_zero (S := S64x16x2048) hz3]
  rfl

/-- A core's first step: the accumulator is cleared, then becomes `step x 0`. -/
theorem sout_A (c : Dev nD) (i : grid0.Coords) (a2 : Memref sig .tc .vmem S64x16x2048 .bf16) (h2 : a2.IsWhole)
    (a3 : Memref sig .tc .vmem S8x128 .f32) (h3 : a3.IsWhole) (a4 : Memref sig .tc .vmem S1x1 .f32) (h4 : a4.IsWhole)
    (hc0 : cond0_0 i) (hc1 : ¬cond0_1 i) (x0 : Vec F S64x16x2048 .bf16) :
    sout0_A_0 c i a2 h2 a3 h3 a4 h4 hc0 hc1 x0 = step x0 zeroAcc := by
  unfold sout0_A_0
  rw [View.read_writes_eq_canon _ _ _ (scover0_A_0 c i a2 h2 a3 h3 a4 h4 hc0 hc1 x0)]
  unfold kernelRun0_A
  dsimp only
  sl_unfold_words
  rw [View.canon_cons_unit_zero (S := S1x1) hz2, View.readCov_unit_zero (S := S1x1) _ hz2]
  simp only [View.readAt_eq_ld, h4.read_unread, h2.read_unread, View.ld_unit_zero (S := S1x1) hz2,
    View.ld_unit_zero (S := S64x16x2048) hz3]
  rfl

/-- A core's last step: the accumulator becomes `step x acc` … -/
theorem sout_C (c : Dev nD) (i : grid0.Coords) (a2 : Memref sig .tc .vmem S64x16x2048 .bf16) (h2 : a2.IsWhole)
    (a3 : Memref sig .tc .vmem S8x128 .f32) (h3 : a3.IsWhole) (a4 : Memref sig .tc .vmem S1x1 .f32) (h4 : a4.IsWhole)
    (hc0 : ¬cond0_0 i) (hc1 : cond0_1 i) (x0 : Vec F S64x16x2048 .bf16) (xs0 : Vec F S1x1 .f32) :
    sout0_C_0 c i a2 h2 a3 h3 a4 h4 hc0 hc1 x0 xs0 = step x0 xs0 := by
  unfold sout0_C_0
  rw [View.read_writes_eq_canon _ _ _ (scover0_C_0 c i a2 h2 a3 h3 a4 h4 hc0 hc1 x0 xs0)]
  unfold kernelRun0_C
  dsimp only
  sl_unfold_words
  rw [View.canon_unit_zero hz2]
  simp only [View.readAt_eq_ld, h4.read_unread, h2.read_unread, View.ld_unit_zero (S := S1x1) hz2,
    View.ld_unit_zero (S := S64x16x2048) hz3]
  rfl

/-- … and the output block is written from it. -/
theorem out_C (c : Dev nD) (i : grid0.Coords) (a2 : Memref sig .tc .vmem S64x16x2048 .bf16) (h2 : a2.IsWhole)
    (a3 : Memref sig .tc .vmem S8x128 .f32) (h3 : a3.IsWhole) (a4 : Memref sig .tc .vmem S1x1 .f32) (h4 : a4.IsWhole)
    (hc0 : ¬cond0_0 i) (hc1 : cond0_1 i) (x0 : Vec F S64x16x2048 .bf16) (xs0 : Vec F S1x1 .f32) :
    out0_C_1 c i a2 h2 a3 h3 a4 h4 hc0 hc1 x0 xs0 = emit (step x0 xs0) := by
  unfold out0_C_1
  rw [View.read_writes_eq_canon _ _ _ (cover0_C_1 c i a2 h2 a3 h3 a4 h4 hc0 hc1 x0 xs0)]
  unfold kernelRun0_C
  dsimp only
  sl_unfold_words
  rw [View.canon_unit_zero hz2, View.readCov_unit_zero (S := S1x1) _ hz2]
  simp only [View.readAt_eq_ld, h4.read_unread, h2.read_unread, View.ld_unit_zero (S := S1x1) hz2,
    View.ld_unit_zero (S := S64x16x2048) hz3]
  rfl

end Cert.KernelIdeal.KPieces

end
-- ==== Proof.KernelBlock.lean ====
import proofs.«168382_j3461743640727_2_alg».proof.Proof.KernelLayout
import proofs.«168382_j3461743640727_2_alg».proof.Proof.KernelMasks
import proofs.«168382_j3461743640727_2_alg».proof.Proof.KernelPieces
import proofs.«168382_j3461743640727_2_alg».proof.Proof.Spec
import Idealize.ShloMosaic.PureOps.IdealRules

/-!
# One grid point's arithmetic, at the extended reals

For a block `x` of 64 groups, the body's payloads read at an index over the groups' coordinates: the batched
product is each group's matrix of inner products of normalised rows, the shifted logits and their exponentials follow
row by row, and the one word the body stores is the old accumulator plus the sum over the block's groups of the group
losses in the kernel's (shifted, multiplied) form.
-/

noncomputable section

open scoped BigOperators
open Idealize.ShloMosaic Idealize.ShloMosaic.TcCoe Idealize.ShloMosaic.ValueIdx

namespace Cert.KernelIdeal.KBlock

open Cert.KernelIdeal Cert.KernelIdeal.Gen Cert.KernelIdeal.KLayout Cert.KernelIdeal.KPieces Cert.GroupLoss

/-- Group `g` of a block. -/
def blk (x : Vec Ideal S64x16x2048 .bf16) (g : Fin 64) : Group := fun r c => x (ix3 g r c)

/-- The block with every row divided by its clamped norm (the product's two operands). -/
def normed (x : Vec Ideal S64x16x2048 .bf16) : FVec Ideal S64x16x2048 .bf16 :=
  have v4 : FVec Ideal S64x16x2048 .bf16 := shapeCast S64x16x2048 x shapeCasts_S64x16x2048_S64x16x2048
  have v5 : FVec Ideal S64x16x2048 .f32 := extf .f32 v4 bitsLt_bf16_f32
  have v6 : FVec Ideal S64x16x2048 .f32 := mulf v5 v5
  have v7 : FVec Ideal S64x16 .f32 := multiReduction .add [2] S64x16 v6 0x00000000#32 reduces_S64x16x2048_S64x16 (.inl rfl) rfl
  have v8 : FVec Ideal S64x16x1 .f32 := shapeCast S64x16x1 v7 shapeCasts_S64x16_S64x16x1
  have v9 : FVec Ideal S64x16x1 .f32 := sqrt v8
  have cst_3 : Ideal .f32 := Scalar.ofBits .f32 0x2B8CBCCC#32
  have v10 : FVec Ideal S64x16x1 .f32 := broadcast S64x16x1 cst_3
  have v11 : FVec Ideal S64x16x1 .f32 := maximumf v9 v10
  have v12 : FVec Ideal S64x16x2048 .f32 := broadcastTo S64x16x2048 v11 broadcasts_S64x16x1_S64x16x2048
  have v13 : FVec Ideal S64x16x2048 .f32 := divf v5 v12
  truncf .bf16 v13 bitsLt_bf16_f32

/-- Entry `(g, r, k)` of the normalised block is the specification's normalised row. -/
theorem normed_apply (x : Vec Ideal S64x16x2048 .bf16) (g : Fin 64) (r : Fin 16) (k : Fin 2048) :
    normed x (ix3 g r k) = unit (blk x g) r k := by
  unfold normed unit nrm
  show Ideal.div (shapeCast S64x16x2048 x shapeCasts_S64x16x2048_S64x16x2048 (ix3 g r k))
    (broadcastTo S64x16x2048 _ broadcasts_S64x16x1_S64x16x2048 (ix3 g r k)) = _
  rw [shapeCast_self, wide_apply]
  show Ideal.div _ (max (Ideal.sqrt (shapeCast S64x16x1 _ shapeCasts_S64x16_S64x16x1 (ix3 g r 0))) _) = _
  rw [keep_apply, laneSum_apply]
  rfl

/-- The batched product at `(g, i, j)` is the inner product of rows `i` and `j` of group `g`, normalised. -/
theorem pay4_apply (x : Vec Ideal S64x16x2048 .bf16) (g : Fin 64) (i j : Fin 16) :
    k0_pay4 (F := Ideal) x (ix3 g i j) = GroupLoss.cos (blk x g) i j := by
  show matmul dot_S64x16x2048_S64x16x2048_S64x16x16_2_2_1_1_0_0 none (normed x) (normed x)
    (constant (F := Ideal) S64x16x16 .f32 0x00000000#32) (ix3 g i j) = _
  rw [gram_apply]
  unfold GroupLoss.cos
  exact Finset.sum_congr rfl fun k _ => by rw [normed_apply, normed_apply]

/-! ## Logits, their row maximum, exponentials -/

/-- The named scale is `1/D`. -/
theorem invTemp_eq : Named.named (F := Ideal) κ "inv_temp" (φ := .f32) 0x41649249#32 = invTemp :=
  IdealRules.named_const.ideal_named_scalar _ _ _ _ rfl

/-- The word `0xFF800000` is `-∞`. -/
theorem ofBits_negInf : Ideal.ofBits .f32 0xFF800000#32 = (⊥ : EReal) := by
  simp [Ideal.ofBits, Ideal.ieee]

/-- Row `i` of group `g`'s logits: the inner products scaled by `1/D`. -/
def logits (x : Vec Ideal S64x16x2048 .bf16) (g : Fin 64) (i : Fin 16) : Fin 16 → EReal :=
  fun k => GroupLoss.cos (blk x g) i k * invTemp

/-- The shifted logits: each logit minus its row's maximum. -/
theorem pay8_apply (x : Vec Ideal S64x16x2048 .bf16) (g : Fin 64) (i j : Fin 16) :
    k0_pay8 (F := Ideal) (k0_pay4 x) (ix3 g i j) = logits x g i j - rowMax (logits x g i) := by
  unfold k0_pay8
  show k0_pay4 (F := Ideal) x (ix3 g i j) * Named.named (F := Ideal) κ "inv_temp" (φ := .f32) 0x41649249#32
    - broadcastTo S64x16x16 (shapeCast S64x16x1 _ shapeCasts_S64x16_S64x16x1) broadcasts_S64x16x1_S64x16x16 (ix3 g i j) = _
  rw [row_apply, keep_apply, rowMax_apply, pay4_apply, invTemp_eq, ofBits_negInf]
  unfold rowMax logits
  congr 2
  funext k
  show k0_pay4 (F := Ideal) x (ix3 g i k) * Named.named (F := Ideal) κ "inv_temp" (φ := .f32) 0x41649249#32 = _
  rw [pay4_apply, invTemp_eq]

/-- Their exponentials. -/
theorem pay9_apply (x : Vec Ideal S64x16x2048 .bf16) (g : Fin 64) (i j : Fin 16) :
    k0_pay9 (F := Ideal) (k0_pay4 x) (ix3 g i j) = Ideal.exp (logits x g i j - rowMax (logits x g i)) := by
  unfold k0_pay9
  show Ideal.exp (k0_pay8 (F := Ideal) (k0_pay4 x) (ix3 g i j)) = _
  rw [pay8_apply]

/-- The sum of a row's exponentials over the negative pairs, on every column of the row. -/
theorem pay10_apply (x : Vec Ideal S64x16x2048 .bf16) (g : Fin 64) (i j : Fin 16) :
    k0_pay10 (F := Ideal) (k0_pay4 x) colIota k0_pay5 (ix3 g i j)
      = ∑ k : Fin 16, Ideal.exp (logits x g i k - rowMax (logits x g i)) * anti i k := by
  unfold k0_pay10
  show broadcastTo S64x16x16 (shapeCast S64x16x1 _ shapeCasts_S64x16_S64x16x1) broadcasts_S64x16x1_S64x16x16 (ix3 g i j) = _
  rw [row_apply, keep_apply, rowSum_apply]
  refine Finset.sum_congr rfl fun k _ => ?_
  show k0_pay9 (F := Ideal) (k0_pay4 x) (ix3 g i k) * broadcastTo S64x16x16 (shapeCast S1x16x16 _ shapeCasts_S16x16_S1x16x16) broadcasts_S1x16x16_S64x16x16 (ix3 g i k) = _
  rw [pay9_apply, mask_apply]
  exact congrArg _ (KMask.anti_apply i k)

/-! ## The accumulator after a point -/

/-- The block's loss: the sum over its 64 groups of the group losses in the kernel's form. -/
def blockLoss (x : Vec Ideal S64x16x2048 .bf16) : EReal := ∑ g : Fin 64, lossMul (blk x g)

/-- The one word the body stores: the old accumulator plus the block's loss. -/
theorem step_apply (x : Vec Ideal S64x16x2048 .bf16) (acc : Vec Ideal S1x1 .f32) :
    step x acc (ix2 (0 : Fin 1) (0 : Fin 1)) = acc (ix2 (0 : Fin 1) (0 : Fin 1)) + blockLoss x := by
  unfold step k0_pay1 blockLoss
  show shapeCast S1x1 _ shapeCasts_S1x1_S1x1 (ix2 (0 : Fin 1) (0 : Fin 1)) = _
  rw [shapeCast_self]
  show acc (ix2 (0 : Fin 1) (0 : Fin 1))
    + shapeCast S1x1 (shapeCast S1x1x1 _ shapeCasts_S1x1_S1x1x1) shapeCasts_S1x1x1_S1x1 (ix2 (0 : Fin 1) (0 : Fin 1)) = _
  rw [unit_casts_apply, blockSum_apply]
  congr 1
  refine Finset.sum_congr rfl fun g _ => ?_
  rw [keep1_apply, groupSum_apply]
  unfold lossMul
  refine Finset.sum_congr rfl fun i _ => ?_
  rw [keep_apply, rowSum_apply]
  refine Finset.sum_congr rfl fun j _ => ?_
  show (k0_pay8 (F := Ideal) (k0_pay4 x) (ix3 g i j)
      - Ideal.log (k0_pay10 (F := Ideal) (k0_pay4 x) colIota k0_pay5 (ix3 g i j) + k0_pay9 (F := Ideal) (k0_pay4 x) (ix3 g i j)))
    * broadcastTo S64x16x16 (shapeCast S1x16x16 _ shapeCasts_S16x16_S1x16x16) broadcasts_S1x16x16_S64x16x16 (ix3 g i j) = _
  rw [pay8_apply, pay9_apply, pay10_apply, mask_apply, KMask.mpos_apply]
  rfl

/-- The cleared accumulator is zero. -/
theorem zeroAcc_apply : (zeroAcc : Vec Ideal S1x1 .f32) (ix2 (0 : Fin 1) (0 : Fin 1)) = 0 := by
  unfold zeroAcc k0_pay3
  show shapeCast S1x1 _ shapeCasts_S1x1_S1x1 (ix2 (0 : Fin 1) (0 : Fin 1)) = _
  rw [shapeCast_self]
  exact Ideal.ofBits_zero_f32

end Cert.KernelIdeal.KBlock

end
-- ==== Proof.KernelAcc.lean ====
import proofs.«168382_j3461743640727_2_alg».proof.Proof.KernelBlock
import Idealize.ShloMosaic.Lib.Pipeline.Value

/-!
# The accumulator along a core's eight steps

The scratch word after grid point `n` is the sum of the block losses of the points of `n`'s core up to `n`: the
first step of a core clears it and adds its block, every later step adds its block to what the step before left. By
induction on the point.
-/

noncomputable section

open scoped BigOperators
open Idealize.ShloMosaic Idealize.ShloMosaic.TcCoe Idealize.SL.Sem Idealize.ShloMosaic.ValueIdx

namespace Cert.KernelIdeal.KAcc

open Cert.KernelIdeal Cert.KernelIdeal.Gen Cert.KernelIdeal.KPieces Cert.KernelIdeal.KBlock

variable (m : (ℓ : Loc nD τ sig) → Buf (Elt Ideal) ℓ)

/-- The loss of the block staged at point `n` (zero past the grid). -/
def ptLoss (c : Dev nD) (n : ℕ) : EReal := if h : n < cfg0.N then blockLoss (iblk m c 0 ⟨n, h⟩) else 0

theorem ptLoss_of_lt (c : Dev nD) (t : Fin cfg0.N) : ptLoss m c t.val = blockLoss (iblk m c 0 t) := by
  unfold ptLoss; rw [dif_pos t.isLt]

/-- A core's first step leaves its block's loss. -/
theorem acc_A (c : Dev nD) (t : Fin cfg0.N) (h0 : t.val % 8 = 0) (h1 : ¬t.val % 8 = 7) :
    (outsAt0 m c t.val t.isLt).2 (ix2 (0 : Fin 1) (0 : Fin 1)) = blockLoss (iblk m c 0 t) := by
  rw [outsAt0_A m c t h0 h1]
  dsimp only
  refine (congrFun (sout_A (F := Ideal) c (grid0.coords t) (ms0_0 t) (hs0_0 t) (ms0_1 t) (hs0_1 t) scM0_0
    (Memref.isWhole_whole _) ((hcond0_0 t).mpr h0) (fun h => h1 ((hcond0_1 t).mp h)) (iblk m c 0 t)) _).trans ?_
  refine (step_apply (iblk m c 0 t) zeroAcc).trans ?_
  rw [zeroAcc_apply, zero_add]

/-- A middle step adds its block's loss to what the step before left. -/
theorem acc_B (c : Dev nD) (t : Fin cfg0.N) (h0 : ¬t.val % 8 = 0) (h1 : ¬t.val % 8 = 7) :
    (outsAt0 m c t.val t.isLt).2 (ix2 (0 : Fin 1) (0 : Fin 1))
      = (outsAt0 m c (t.val - 1) (Nat.lt_of_le_of_lt (Nat.sub_le _ _) t.isLt)).2 (ix2 (0 : Fin 1) (0 : Fin 1))
        + blockLoss (iblk m c 0 t) := by
  rw [outsAt0_B m c t h0 h1]
  dsimp only
  refine (congrFun (sout_B (F := Ideal) c (grid0.coords t) (ms0_0 t) (hs0_0 t) (ms0_1 t) (hs0_1 t) scM0_0
    (Memref.isWhole_whole _) (fun h => h0 ((hcond0_0 t).mp h)) (fun h => h1 ((hcond0_1 t).mp h)) (iblk m c 0 t)
    (outsAt0 m c (t.val - 1) (Nat.lt_of_le_of_lt (Nat.sub_le _ _) t.isLt)).2) _).trans ?_
  exact step_apply (iblk m c 0 t) _

/-- So does a core's last step. -/
theorem acc_C (c : Dev nD) (t : Fin cfg0.N) (h0 : ¬t.val % 8 = 0) (h1 : t.val % 8 = 7) :
    (outsAt0 m c t.val t.isLt).2 (ix2 (0 : Fin 1) (0 : Fin 1))
      = (outsAt0 m c (t.val - 1) (Nat.lt_of_le_of_lt (Nat.sub_le _ _) t.isLt)).2 (ix2 (0 : Fin 1) (0 : Fin 1))
        + blockLoss (iblk m c 0 t) := by
  rw [outsAt0_C m c t h0 h1]
  dsimp only
  refine (congrFun (sout_C (F := Ideal) c (grid0.coords t) (ms0_0 t) (hs0_0 t) (ms0_1 t) (hs0_1 t) scM0_0
    (Memref.isWhole_whole _) (fun h => h0 ((hcond0_0 t).mp h)) ((hcond0_1 t).mpr h1) (iblk m c 0 t)
    (outsAt0 m c (t.val - 1) (Nat.lt_of_le_of_lt (Nat.sub_le _ _) t.isLt)).2) _).trans ?_
  exact step_apply (iblk m c 0 t) _

/-- The accumulator after point `n`: the block losses of its core's points `n − n mod 8, …, n`. -/
theorem acc_eq (c : Dev nD) : ∀ (n : ℕ) (hn : n < cfg0.N),
    (outsAt0 m c n hn).2 (ix2 (0 : Fin 1) (0 : Fin 1)) = ∑ k ∈ Finset.range (n % 8 + 1), ptLoss m c (n - n % 8 + k)
  | 0, hn => by
    rw [acc_A m c ⟨0, hn⟩ rfl (by dsimp only; omega)]
    simp [ptLoss, hn]
  | n + 1, hn => by
    by_cases h0 : (n + 1) % 8 = 0
    · rw [acc_A m c ⟨n + 1, hn⟩ h0 (by dsimp only; omega), h0]
      simp only [Nat.zero_add, Finset.sum_range_one, Nat.sub_zero, Nat.add_zero]
      exact (ptLoss_of_lt m c ⟨n + 1, hn⟩).symm
    · have ih := acc_eq c n (Nat.lt_of_succ_lt hn)
      have hstep : (outsAt0 m c (n + 1) hn).2 (ix2 (0 : Fin 1) (0 : Fin 1))
          = (outsAt0 m c n (Nat.lt_of_succ_lt hn)).2 (ix2 (0 : Fin 1) (0 : Fin 1)) + blockLoss (iblk m c 0 ⟨n + 1, hn⟩) := by
        by_cases h1 : (n + 1) % 8 = 7
        · exact acc_C m c ⟨n + 1, hn⟩ h0 h1
        · exact acc_B m c ⟨n + 1, hn⟩ h0 h1
      rw [hstep, ih]
      have e1 : (n + 1) % 8 = n % 8 + 1 := by omega
      have e2 : n + 1 - (n % 8 + 1) = n - n % 8 := by omega
      rw [e1, e2, Finset.sum_range_succ _ (n % 8 + 1)]
      congr 1
      rw [show n - n % 8 + (n % 8 + 1) = n + 1 by omega]
      exact (ptLoss_of_lt m c ⟨n + 1, hn⟩).symm

end Cert.KernelIdeal.KAcc

end
-- ==== Proof.KernelInput.lean ====
import proofs.«168382_j3461743640727_2_alg».proof.Proof.Gen.KernelIdeal.Frame
import proofs.«168382_j3461743640727_2_alg».proof.Proof.Spec
import Idealize.ShloMosaic.Lib.Pipeline.Value
import Idealize.ShloMosaic.Lib.ValueIdx
import Idealize.ShloMosaic.Lib.StableHlo.Run
import Idealize.ShloMosaic.Lib.Tactic

/-!
# What the kernel's input window holds at a grid point

Before the region the program converts its argument `x : [4096, 2048, 4]` to the narrower format (the identity on
extended reals), reshapes it to `[1024, 4, 2048, 4]`, transposes by `[0, 3, 1, 2]` to `[1024, 4, 4, 2048]` and
reshapes to `[1024, 16, 2048]`. Element `(G, r, k)` of the result is element `(G, r / 4, r % 4, k)` of the transposed
array, that is `(G, r % 4, k, r / 4)` before the transposition, that is `x[4·G + r % 4, k, r / 4]`: row `r` of
group `G` of the input, as the specification reads it.

Window 0 stages that array in blocks of 64 groups, block `8·p + s` at grid point `(p, s)` — block `t` at the
`t`-th point of the 2 × 8 grid —, so element `(g, r, k)` of the block at point `t` is row `r`, entry `k`, of group
`64·t + g`.
-/

noncomputable section

namespace Cert.KernelIdeal.KInput

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ)

/-! ## The staged array, as a function of the argument -/

/-- The array the window stages, from the argument: reshape, transpose, reshape (the format change before them is
    the identity on extended reals). -/
def arr (x : S4096x2048x4.Idx → EReal) : S1024x16x2048.Idx → EReal :=
  shapeCast S1024x16x2048
    (transpose S1024x4x4x2048 [0, 3, 1, 2]
      (shapeCast S1024x4x2048x4 x shapeCasts_S4096x2048x4_S1024x4x2048x4)
      transposes_S1024x4x2048x4_S1024x4x4x2048_0_3_1_2)
    shapeCasts_S1024x4x4x2048_S1024x16x2048

/-- THE STAGED ARRAY AT AN INDEX: element `(G, r, k)` is `x[4·G + r % 4, k, r / 4]`. The outer reshape keeps the
    row-major number, `(16·G + r)·2048 + k = ((4·G + r / 4)·4 + r % 4)·2048 + k`; the transposition sends result axes
    `0, 1, 2, 3` to source axes `0, 3, 1, 2`; the inner reshape keeps the row-major number again,
    `((4·G + n)·2048 + k)·4 + t` on both sides. -/
theorem arr_apply (x : S4096x2048x4.Idx → EReal) (G : Fin 1024) (r : Fin 16) (k : Fin 2048) :
    arr x (ix3 G r k)
      = x (ix3 (⟨G.val * 4 + r.val % 4, by have := G.isLt; have := Nat.mod_lt r.val (by decide : 0 < 4); omega⟩ : Fin 4096) k
          (⟨r.val / 4, by have := r.isLt; omega⟩ : Fin 4)) := by
  have hG := G.isLt
  have hr := r.isLt
  have hk := k.isLt
  unfold arr
  rw [shapeCast_apply _ shapeCasts_S1024x4x4x2048_S1024x16x2048 (ix3 G r k)
    (ix4 G (⟨r.val / 4, by omega⟩ : Fin 4) (⟨r.val % 4, by omega⟩ : Fin 4) k)
    (by rw [Shape.rowMajor_val_four, Shape.rowMajor_val_three]
        show ((G.val * 4 + r.val / 4) * 4 + r.val % 4) * 2048 + k.val = (G.val * 16 + r.val) * 2048 + k.val
        omega)]
  rw [transpose_apply [0, 3, 1, 2] _ transposes_S1024x4x2048x4_S1024x4x4x2048_0_3_1_2
    (ix4 G (⟨r.val / 4, by omega⟩ : Fin 4) (⟨r.val % 4, by omega⟩ : Fin 4) k)
    (ix4 G (⟨r.val % 4, by omega⟩ : Fin 4) k (⟨r.val / 4, by omega⟩ : Fin 4))
    (fun b => match b with
      | ⟨0, _⟩ => rfl
      | ⟨1, _⟩ => rfl
      | ⟨2, _⟩ => rfl
      | ⟨3, _⟩ => rfl)]
  rw [shapeCast_apply _ shapeCasts_S4096x2048x4_S1024x4x2048x4
    (ix4 G (⟨r.val % 4, by omega⟩ : Fin 4) k (⟨r.val / 4, by omega⟩ : Fin 4))
    (ix3 (⟨G.val * 4 + r.val % 4, by omega⟩ : Fin 4096) k (⟨r.val / 4, by omega⟩ : Fin 4))
    (by rw [Shape.rowMajor_val_three, Shape.rowMajor_val_four]
        show ((G.val * 4 + r.val % 4) * 2048 + k.val) * 4 + r.val / 4 = ((G.val * 4 + r.val % 4) * 2048 + k.val) * 4 + r.val / 4
        rfl)]

/-- When the region is entered the window's array holds `arr` of the argument: the four host operations before the
    region, each writing its own result buffer. -/
theorem V_main_v3 (c : Dev nD) :
    (V m c main_v3 : S1024x16x2048.Idx → EReal) = arr (m ((c : Thread nD τ).loc main_arg0)) := by
  show StableHlo.after hostOps0 (fun b => m (c, b)) (Proc.devRef .tc main_v3) = _
  after_results
  rfl

/-! ## The block at a grid point -/

/-- The window's block index at the `t`-th point of the 2 × 8 grid is `(t, 0, 0)`: `8·(t / 8) + t % 8 = t`, decided
    over the sixteen points. -/
theorem idx_facts : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- The block at point `t` read at `(g, r, k)` is the array at `(64·t + g, r, k)`: a block's coordinate on each axis
    is the block index times the block's extent plus the coordinate inside the block. -/
theorem iblk_read (c : Dev nD) (t : Fin cfg0.N) (g : Fin 64) (r : Fin 16) (k : Fin 2048) :
    (iblk m c 0 t : Vec Ideal S64x16x2048 .bf16) (ix3 g r k)
      = (V m c main_v3 : S1024x16x2048.Idx → EReal)
          (ix3 (⟨t.val * 64 + g.val, by have := t.isLt; have h : cfg0.N = 16 := N_0; have := g.isLt; omega⟩ : Fin 1024) r k) := by
  obtain ⟨h0, h1, h2⟩ := idx_facts t
  unfold iblk
  rw [View.read_apply]
  show V m c main_v3 _ = V m c main_v3 _
  congr 1
  funext a
  apply Fin.ext
  match a with
  | ⟨0, _⟩ => show win0_0.index t 0 * 64 + 1 * g.val = t.val * 64 + g.val; rw [h0]; omega
  | ⟨1, _⟩ => show win0_0.index t 1 * 16 + 1 * r.val = r.val; rw [h1]; omega
  | ⟨2, _⟩ => show win0_0.index t 2 * 2048 + 1 * k.val = k.val; rw [h2]; omega

/-- THE INPUT BLOCK AT AN INDEX: at grid point `t`, element `(g, r, k)` of the window's block is row `r`, entry `k`,
    of group `64·t + g` of the program's argument. -/
theorem iblk_apply (c : Dev nD) (t : Fin cfg0.N) (g : Fin 64) (r : Fin 16) (k : Fin 2048) :
    (iblk m c 0 t : Vec Ideal S64x16x2048 .bf16) (ValueIdx.ix3 g r k)
      = Cert.GroupLoss.grp (m ((c : Thread nD τ).loc main_arg0))
          ⟨t.val * 64 + g.val, by have := t.isLt; have h : cfg0.N = 16 := N_0; have := g.isLt; omega⟩ r k := by
  refine (iblk_read m c t g r k).trans ?_
  rw [V_main_v3, arr_apply]
  rfl

/-- The same as an equality of groups: slab `g` of the block at point `t` IS group `64·t + g`. -/
theorem iblk_group (c : Dev nD) (t : Fin cfg0.N) (g : Fin 64) :
    (fun r k => (iblk m c 0 t : Vec Ideal S64x16x2048 .bf16) (ValueIdx.ix3 g r k))
      = Cert.GroupLoss.grp (m ((c : Thread nD τ).loc main_arg0))
          ⟨t.val * 64 + g.val, by have := t.isLt; have h : cfg0.N = 16 := N_0; have := g.isLt; omega⟩ := by
  funext r k
  exact iblk_apply m c t g r k

end Cert.KernelIdeal.KInput

end
-- ==== Proof.KernelResult.lean ====
/-
  The kernel program's result word, from the two cores' final accumulators.

  The grid has 16 points, 8 per core: core `p` runs points `8p … 8p + 7`. At its last point (`t ≡ 7 mod 8`) a core
  writes its [8, 128] output block from its one-word accumulator: `(0 − acc) / 48` at entry (0, 0), zero elsewhere,
  and only at those two points is the block written back — to rows `8p … 8p + 7` of the [16, 128] result array. So
  the array ends with `(0 − acc_p) / 48` at entry `(8p, 0)` and zero everywhere else, and the host's sum of it from
  zero over both axes is the sum of the two quotients. The accumulators themselves stay abstract here.
-/
import proofs.«168382_j3461743640727_2_alg».proof.Proof.KernelPieces
import Idealize.ShloMosaic.Lib.Pipeline.Value
import Idealize.ShloMosaic.Lib.ValueIdx
import Idealize.ShloMosaic.Lib.StableHlo.Run
import Idealize.ShloMosaic.Lib.Tactic
import Idealize.ShloMosaic.PureOps.Ideal.Laws

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.KResult

open Cert.KernelIdeal Cert.KernelIdeal.Gen Cert.KernelIdeal.KPieces

variable (m : (ℓ : Loc nD τ sig) → Buf (Elt Ideal) ℓ) (ρ : Dev nD → PrngReg)

/-! ## The written block, entry by entry -/

/-- The row-index word of the block is `0` exactly on row `0`. -/
theorem row_bit : ∀ a : Fin 8,
    IntOp.cmpi .eq (BitVec.ofNat 32 (0 * 8 + a.val)) 0#32 = if a.val = 0 then 1#1 else 0#1 := by
  decide

/-- The column-index word of the block is `0` exactly on column `0`. -/
theorem col_bit : ∀ b : Fin 128,
    IntOp.cmpi .eq (BitVec.ofNat 32 (0 * 128 + b.val)) 0#32 = if b.val = 0 then 1#1 else 0#1 := by
  decide

/-- The written block at an entry, its operations read at the entry: the select on "row is 0 and column is 0"
    between the broadcast quotient and zero. -/
theorem emit_raw (acc : Vec Ideal S1x1 .f32) (a : Fin 8) (b : Fin 128) :
    emit (F := Ideal) acc (ix2 a b)
      = Scalar.select (IntOp.andi (IntOp.cmpi .eq (BitVec.ofNat 32 (0 * 8 + a.val)) 0#32)
            (IntOp.cmpi .eq (BitVec.ofNat 32 (0 * 128 + b.val)) 0#32))
          (broadcastTo S8x128 (shapeCast S1x1 (divf (subf (broadcast S1x1 (Ideal.ofBits .f32 0x00000000#32)) acc)
            (broadcast S1x1 (Ideal.ofBits .f32 0x42400000#32))) shapeCasts_S1x1_S1x1) broadcasts_S1x1_S8x128 (ix2 a b))
          (Ideal.ofBits .f32 0x00000000#32) := rfl

/-- The one-entry quotient broadcast to the block reads, everywhere, `(0 − acc) / 48`. -/
theorem quot_bcast (acc : Vec Ideal S1x1 .f32) (a : Fin 8) (b : Fin 128) :
    broadcastTo S8x128 (shapeCast S1x1 (divf (subf (broadcast S1x1 (Ideal.ofBits .f32 0x00000000#32)) acc)
        (broadcast S1x1 (Ideal.ofBits .f32 0x42400000#32))) shapeCasts_S1x1_S1x1) broadcasts_S1x1_S8x128 (ix2 a b)
      = Ideal.div (0 - acc (ix2 0 0)) (Ideal.ofBits .f32 0x42400000#32) := by
  refine (broadcastTo_apply _ broadcasts_S1x1_S8x128 (ix2 a b) (ix2 0 0) (fun d => by
    match d with
    | ⟨0, _⟩ => rfl
    | ⟨1, _⟩ => rfl)).trans ?_
  rw [shapeCast_self]
  show Ideal.div (Ideal.ofBits .f32 0x00000000#32 - acc (ix2 0 0)) (Ideal.ofBits .f32 0x42400000#32) = _
  rw [Ideal.ofBits_zero_f32]

/-- THE WRITTEN BLOCK: `(0 − acc) / 48` at entry (0, 0), zero at every other entry. -/
theorem emit_apply (acc : Vec Ideal S1x1 .f32) (a : Fin 8) (b : Fin 128) :
    emit (F := Ideal) acc (ix2 a b)
      = if a.val = 0 ∧ b.val = 0 then Ideal.div (0 - acc (ix2 0 0)) (Ideal.ofBits .f32 0x42400000#32) else 0 := by
  rw [emit_raw, quot_bcast, row_bit a, col_bit b, Ideal.ofBits_zero_f32]
  by_cases ha : a.val = 0 <;> by_cases hb : b.val = 0
  · rw [if_pos ha, if_pos hb, if_pos ⟨ha, hb⟩]; exact select_one _ _
  · rw [if_pos ha, if_neg hb, if_neg (fun h => hb h.2)]; exact select_zero _ _
  · rw [if_neg ha, if_pos hb, if_neg (fun h => ha h.1)]; exact select_zero _ _
  · rw [if_neg ha, if_neg hb, if_neg (fun h => ha h.1)]; exact select_zero _ _

/-! ## A core's last point leaves the block written from its accumulator -/

/-- At a point `t ≡ 7 (mod 8)` the output block is the block written from the accumulator the point leaves. -/
theorem out_eq_emit (c : Dev nD) (t : Fin cfg0.N) (h1 : t.val % 8 = 7) :
    (outsAt0 m c t.val t.isLt).1 = emit (F := Ideal) (outsAt0 m c t.val t.isLt).2 := by
  have h0 : ¬t.val % 8 = 0 := by omega
  rw [outsAt0_C m c t h0 h1]
  exact (out_C (F := Ideal) c (grid0.coords t) (ms0_0 t) (hs0_0 t) (ms0_1 t) (hs0_1 t) scM0_0 (Memref.isWhole_whole _)
      (fun h => h0 ((hcond0_0 t).mp h)) ((hcond0_1 t).mpr h1) (iblk m c 0 t)
      (outsAt0 m c (t.val - 1) (Nat.lt_of_le_of_lt (Nat.sub_le _ _) t.isLt)).2).trans
    (congrArg (emit (F := Ideal))
      (sout_C (F := Ideal) c (grid0.coords t) (ms0_0 t) (hs0_0 t) (ms0_1 t) (hs0_1 t) scM0_0 (Memref.isWhole_whole _)
        (fun h => h0 ((hcond0_0 t).mp h)) ((hcond0_1 t).mpr h1) (iblk m c 0 t)
        (outsAt0 m c (t.val - 1) (Nat.lt_of_le_of_lt (Nat.sub_le _ _) t.isLt)).2).symm)

/-- The written block at any index of the block. -/
theorem emit_at (acc : Vec Ideal S1x1 .f32) (k : S8x128.Idx) :
    emit (F := Ideal) acc k
      = if (k 0).val = 0 ∧ (k 1).val = 0 then Ideal.div (0 - acc (ix2 0 0)) (Ideal.ofBits .f32 0x42400000#32) else 0 :=
  (congrArg (emit (F := Ideal) acc) (eq_ix2 k)).trans (emit_apply acc (k 0) (k 1))

/-! ## The result array of the region -/

/-- Core `p`'s accumulator word after its last step (point `8p + 7`). -/
def coreAcc (c : Dev nD) (p : Fin 2) : EReal :=
  (outsAt0 m c (8 * p.val + 7) (by have h : cfg0.N = 16 := N_0; have := p.isLt; omega)).2 (ix2 0 0)

/-- The same word named through the point. -/
theorem coreAcc_eq (c : Dev nD) (p : Fin 2) (t : Fin cfg0.N) (ht : t.val = 8 * p.val + 7) :
    coreAcc m c p = (outsAt0 m c t.val t.isLt).2 (ix2 0 0) := by
  obtain ⟨n, hn⟩ := t
  dsimp only at ht
  subst ht
  rfl

/-- The [16, 128] array the two cores write: entry `(8p, 0)` is `(0 − acc_p) / 48`, every other entry is zero. -/
def G (c : Dev nD) : S16x128.Idx → EReal := fun i =>
  if (i 0).val % 8 = 0 ∧ (i 1).val = 0 then
    Ideal.div (0 - coreAcc m c ⟨(i 0).val / 8, by have := idx2_lt0 i; omega⟩) (Ideal.ofBits .f32 0x42400000#32)
  else 0

/-- `G` at row `8p + r`. -/
theorem G_apply (c : Dev nD) (i : S16x128.Idx) (p : Fin 2) (r : ℕ) (hr : r < 8) (h0 : (i 0).val = 8 * p.val + r) :
    G m c i = if r = 0 ∧ (i 1).val = 0 then
      Ideal.div (0 - coreAcc m c p) (Ideal.ofBits .f32 0x42400000#32) else 0 := by
  have hp : (⟨(i 0).val / 8, by have := idx2_lt0 i; omega⟩ : Fin 2) = p := Fin.ext (by show (i 0).val / 8 = p.val; omega)
  unfold G
  rw [hp]
  exact if_congr (by omega) rfl rfl

/-- The output window's block index at a point: block row `t / 8`, block column `0`. -/
theorem idx_facts : ∀ t : Fin cfg0.N, win0_1.index t (0 : Fin 2) = t.val / 8 ∧ win0_1.index t (1 : Fin 2) = 0 :=
  (by decide +kernel : ∀ t : Fin grid0.N, _)

/-- WHAT A WRITE-BACK WRITES: at a point `t ≡ 7 (mod 8)`, block `t / 8` of `G`. -/
theorem flushed_eq (c : Dev nD) (t : Fin cfg0.N) (hf : (cfg0.win 1).flush t = true) :
    (dats m 0 c).flushed 1 t = ((cfg0.win 1).blk t).view.read (Elt Ideal) (G m c) := by
  have h7 : t.val % 8 = 7 := (flush0_1 t).mp hf
  have hN : t.val < 16 := lt_of_lt_of_eq t.isLt (show cfg0.N = 16 from N_0)
  obtain ⟨e0, e1⟩ := idx_facts t
  show (cfg0.win 1).cut (grid0.coords t) ((dats m 0 c).after 1 t) = _
  rw [after0_1, out_eq_emit m c t h7]
  funext j
  have hj0 : (j 0).val < 8 := (j 0).isLt
  have hj1 : (j 1).val < 128 := (j 1).isLt
  show emit (F := Ideal) (outsAt0 m c t.val t.isLt).2 ((cfg0.win 1).xinj (grid0.coords t) j)
    = G m c (((cfg0.win 1).blk t).view.emb j)
  refine (emit_at _ _).trans ?_
  refine Eq.symm ((G_apply m c (((cfg0.win 1).blk t).view.emb j) ⟨t.val / 8, by omega⟩ (j 0).val hj0 ?_).trans ?_)
  · show win0_1.index t (0 : Fin 2) * 8 + 1 * (j 0).val = 8 * (t.val / 8) + (j 0).val
    rw [e0]; omega
  · rw [coreAcc_eq m c ⟨t.val / 8, by omega⟩ t (by show t.val = 8 * (t.val / 8) + 7; omega)]
    refine if_congr ?_ rfl rfl
    show (j 0).val = 0 ∧ win0_1.index t (1 : Fin 2) * 128 + 1 * (j 1).val = 0 ↔ (j 0).val = 0 ∧ (j 1).val = 0
    rw [e1]; omega

/-- An index of the array is in point `t`'s block iff each coordinate is in the block's range on its axis. -/
theorem mem_blk (t : Fin cfg0.N) (i : S16x128.Idx) :
    i ∈ ((cfg0.win 1).blk t).view.set ↔ ∀ a : Fin 2, win0_1.index t a * S8x128.size a ≤ (i a).val
      ∧ (i a).val < win0_1.index t a * S8x128.size a + S8x128.size a := by
  show i ∈ ((View.whole main_v4).slice (win0_1.rect t)).set ↔ _
  rw [View.set_slice_whole, Rect.mem_set_unit]
  exact Iff.rfl

/-- THE RESULT ARRAY after the region: row `a` lies in the block written back at point `8 (a / 8) + 7`, so the
    two write-backs cover the array and it ends holding `G`. -/
theorem final (c : Dev nD) : (dats m 0 c).arrAt 1 cfg0.N = G m c :=
  (dats m 0 c).arrAt_eq_of_cover 1 (G m c) (flushed_eq m c) fun i => by
    have hi0 : (i 0).val < 16 := (i 0).isLt
    have hi1 : (i 1).val < 128 := (i 1).isLt
    have hN : cfg0.N = 16 := N_0
    obtain ⟨t, ht⟩ : ∃ t : Fin cfg0.N, t.val = 8 * ((i 0).val / 8) + 7 := ⟨⟨_, by omega⟩, rfl⟩
    obtain ⟨e0, e1⟩ := idx_facts t
    refine ⟨t, (flush0_1 t).mpr (by omega), ?_⟩
    rw [mem_blk]
    intro a
    match a with
    | ⟨0, _⟩ =>
      show win0_1.index t (0 : Fin 2) * 8 ≤ (i 0).val ∧ (i 0).val < win0_1.index t (0 : Fin 2) * 8 + 8
      rw [e0]; omega
    | ⟨1, _⟩ =>
      show win0_1.index t (1 : Fin 2) * 128 ≤ (i 1).val ∧ (i 1).val < win0_1.index t (1 : Fin 2) * 128 + 128
      rw [e1]; omega

/-! ## The sum of the result array, and the run -/

/-- A rank-2 index with given coordinate values is `ix2` of them. -/
theorem eq_ix2_of_val {n0 n1 : Nat} (i : (⟨2, ![n0, n1]⟩ : Shape).Idx) (a : Fin n0) (b : Fin n1)
    (ha : (i 0).val = a.val) (hb : (i 1).val = b.val) : i = ix2 a b := by
  funext d
  match d with
  | ⟨0, _⟩ => exact Fin.ext ha
  | ⟨1, _⟩ => exact Fin.ext hb

/-- Only entries `(0, 0)` and `(8, 0)` of `G` are not zero, so its sum over every index is the two cores' quotients. -/
theorem sum_G (c : Dev nD) :
    ∑ i : S16x128.Idx, G m c i
      = Ideal.div (0 - coreAcc m c 0) (Ideal.ofBits .f32 0x42400000#32)
        + Ideal.div (0 - coreAcc m c 1) (Ideal.ofBits .f32 0x42400000#32) := by
  have hne : (ix2 (0 : Fin 16) (0 : Fin 128) : S16x128.Idx) ≠ ix2 (8 : Fin 16) (0 : Fin 128) := fun h => by
    have := congrArg (fun i : S16x128.Idx => (i 0).val) h
    exact absurd this (by decide)
  rw [Finset.sum_eq_add_of_mem (ix2 (0 : Fin 16) (0 : Fin 128)) (ix2 (8 : Fin 16) (0 : Fin 128))
    (Finset.mem_univ _) (Finset.mem_univ _) hne]
  · rw [G_apply m c (ix2 (0 : Fin 16) (0 : Fin 128)) 0 0 (by decide) rfl,
      G_apply m c (ix2 (8 : Fin 16) (0 : Fin 128)) 1 0 (by decide) rfl, if_pos ⟨rfl, rfl⟩, if_pos ⟨rfl, rfl⟩]
  · intro i _ hi
    have hi0 : (i 0).val < 16 := idx2_lt0 i
    unfold G
    refine if_neg fun hc => ?_
    rcases (by omega : (i 0).val = 0 ∨ (i 0).val = 8) with h | h
    · exact hi.1 (eq_ix2_of_val i 0 0 h hc.2)
    · exact hi.2 (eq_ix2_of_val i 8 0 h hc.2)

/-- THE RESULT WORD: the host sums the result array from zero over both axes. -/
theorem tail_eq (c : Dev nD) :
    Pipeline.afterTail₀ cfgs (dats m) 0 (V0 m) [hostOps1] c main_v5
      = fun _ => Ideal.div (0 - coreAcc m c 0) (Ideal.ofBits .f32 0x42400000#32)
          + Ideal.div (0 - coreAcc m c 1) (Ideal.ofBits .f32 0x42400000#32) := by
  unfold Pipeline.afterTail₀
  show StableHlo.after hostOps1 _ (Proc.devRef .tc main_v5) = _
  after_results
  have hA : Pipeline.withArrays (cfgs 0).spec c (V0 m c) (fun w => (dats m 0 c).arrAt w (cfgs 0).N)
      (Proc.devRef .tc main_v4) = G m c :=
    (Pipeline.withArrays_arr spec0 launch0.win.arr_inj c _ _ 1).trans (final m c)
  rw [hA]
  funext j
  show Ideal.hostReduceAdd reducesTo_S16x128_S_d0_1 (G m c) (Ideal.ofBits .f32 0x00000000#32) j = _
  rw [Ideal.hostReduceAdd_total _ (fun b => b.elim0), Ideal.ofBits_zero_f32, zero_add, sum_G]

/-- THE RUN, READ: the result word is the sum of the two cores' quotients, and the argument ends as launched. -/
theorem run_result :
    θ_run defs (onTc (τ := τ) (main (F := Ideal))) ⟨m, fun _ => 0, ρ⟩ (fun r => ∀ c : Dev nD,
      r.2.mem ((c.tc : Thread nD τ).loc main_v5) = (fun _ =>
          Ideal.div (0 - coreAcc m c 0) (Ideal.ofBits .f32 0x42400000#32)
            + Ideal.div (0 - coreAcc m c 1) (Ideal.ofBits .f32 0x42400000#32))
      ∧ r.2.mem ((c.tc : Thread nD τ).loc main_arg0) = m ((c.tc : Thread nD τ).loc main_arg0)) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c)⟩)
    (run_main m ρ)

end Cert.KernelIdeal.KResult

end
-- ==== Proof.LibRealClosed.lean ====
/-
  Arrays of extended reals whose every entry is a real number, and the host operations that keep them so.

  On the extended reals the field laws fail at the infinities (a product distributes over a sum only off them), so a
  proof that rearranges sums of products first shows that every number in sight is real. The facts here do that
  without reading any array at an index: an entry of a matrix product is a finite sum of products of entries; an entry
  of a transposed, sliced, reshaped, broadcast or concatenated array is an entry of an operand; sums, differences,
  products and negatives of reals are real; and a quotient of reals is real when the divisor is not zero.
-/
import Idealize.ShloMosaic.PureOps.Ideal
import Idealize.ShloMosaic.PureOps.Ideal.Laws
import Idealize.ShloMosaic.Lib.ValueIdx

noncomputable section

open scoped BigOperators

namespace Cert.LibRealClosed

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h _ (Finset.mem_insert_self _ _)).add (ih fun i hi => h i (Finset.mem_insert_of_mem hi))

/-- The quotient of a real by a real other than zero is real: it is the product with the reciprocal. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- A real is neither infinity; conversely an extended real strictly between the infinities is real. -/
theorem isReal_of_abs_lt_top {x : EReal} (h : max x (-x) < ⊤) : IsReal x := by
  induction x using EReal.rec with
  | bot => exact absurd h (by simp)
  | coe r => exact ⟨r, rfl⟩
  | top => exact absurd h (by simp)

/-- Every entry of the array is a real number. -/
def AllReal {S : Shape} {φ : FTy} (v : FVec Ideal S φ) : Prop := ∀ i, IsReal (v i)

variable {s t : Shape} {φ : FTy}

/-- An entry of a matrix product (any dimension numbers) is a finite sum of products of entries of the operands. -/
theorem AllReal.dotGeneral {sl sr so : Shape} {φ₁ φ₂ : FTy} (d : DotDims sl sr so) (p : Option ContractPrecision)
    {l : FVec Ideal sl φ₁} {r : FVec Ideal sr φ₂} (hl : AllReal l) (hr : AllReal r) :
    AllReal (Host.dotGeneral d p l r) := by
  intro j
  show IsReal (FloatOps.dotGeneral d p _ l r j)
  rw [Ideal.dotGeneral_apply]
  exact IsReal.sum _ _ fun k _ => (hl _).mul (hr _)

theorem AllReal.transpose (perm : List (Fin s.rank)) {x : FVec Ideal s φ} (h : s.Transposes perm t) (hx : AllReal x) :
    AllReal (φ := φ) (transpose t perm x h) := fun _ => hx _

theorem AllReal.slice (off : Fin s.rank → Nat) {x : FVec Ideal s φ} (h : s.Slices off t) (hx : AllReal x) :
    AllReal (φ := φ) (extractStridedSlice t off x h) := fun _ => hx _

theorem AllReal.shapeCast {x : FVec Ideal s φ} (h : s.ShapeCasts t) (hx : AllReal x) :
    AllReal (φ := φ) (shapeCast t x h) := fun _ => hx _

theorem AllReal.broadcastInDim (dims : Fin s.rank → Fin t.rank) (h : s.BroadcastsInDim t dims) {x : FVec Ideal s φ}
    (hx : AllReal x) : AllReal (φ := φ) (broadcastInDim t dims h x) := fun _ => hx _

/-- An entry of arrays joined along an axis is an entry of one of them. -/
theorem AllReal.concatenate (a : Fin t.rank) (xs : List ((s : Shape) × (s.Idx → Ideal φ)))
    (h : Shape.Concatenates (xs.map (·.1)) t a) (hx : ∀ p ∈ xs, ∀ i, IsReal (p.2 i)) :
    AllReal (φ := φ) (concatenate t a xs h) := by
  intro j
  unfold Idealize.ShloMosaic.concatenate
  exact hx _ (List.getElem_mem _) _

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.hostNegf {x : FVec Ideal s φ} (hx : AllReal x) : AllReal (Host.negf x) :=
  fun i => (hx i).neg

/-- The quotient of two arrays of reals is an array of reals when no divisor is zero. -/
theorem AllReal.hostDivf {x y : FVec Ideal s φ} (hx : AllReal x) (hy : AllReal y) (h0 : ∀ i, y i ≠ 0) :
    AllReal (Host.divf x y) :=
  fun i => (hx i).div (hy i) (h0 i)

end Cert.LibRealClosed

end
-- ==== Proof.LibOnlineSoftmax.lean ====
/-
  Softmax-weighted sums computed block by block, on the extended reals.

  For a row of real scores `s k` and real values `v k d` the softmax-weighted sum is
  `o d = (∑ k, exp (s k) · v k d) / (∑ k, exp (s k))`.  It does not change when every score is shifted by one real `μ`:
  `exp (s k - μ) = exp (s k) · exp (-μ)`, and the common factor cancels.  So a program may subtract ANY real from the
  scores before exponentiating — the row's maximum, or a running maximum over the columns seen so far.

  The blockwise recurrence keeps, after a set `A` of columns, a real `μ` (the running maximum; only its being real is
  used), `l = ∑_{k∈A} exp (s k - μ)` and `a d = ∑_{k∈A} exp (s k - μ) · v k d`.  A further block `B` of columns, disjoint
  from `A`, moves `μ` to `μ' = max μ (max_B s)`, and rescales: `exp (μ - μ') · exp (s k - μ) = exp (s k - μ')`, so
  `exp (μ - μ') · l + ∑_{k∈B} exp (s k - μ')` is the new `l` over `A ∪ B`, and the same for `a`.  The first block starts from
  `μ = -∞`, `l = 0`, `a = 0`: there `exp (-∞ - μ') = 0` and the old terms vanish.  All sums are finite sums of reals, so on
  the extended reals each step is the real step under the coercion; the maximum of a nonempty block of reals is one of them,
  hence real.
-/
import Idealize.ShloMosaic.PureOps.Ideal
import Mathlib

noncomputable section

open scoped BigOperators

namespace Cert.OnlineSoftmax

open Idealize.ShloMosaic

/-- The coercion to the extended reals commutes with a finite sum. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The exact exponential at a real. -/
theorem exp_coe (x : ℝ) : Ideal.exp (x : EReal) = ((Real.exp x : ℝ) : EReal) := rfl

/-- The exact exponential of a difference of reals. -/
theorem exp_coe_sub (x y : ℝ) : Ideal.exp ((x : EReal) - (y : EReal)) = ((Real.exp (x - y) : ℝ) : EReal) := by
  rw [← EReal.coe_sub]; rfl

/-- `e^{-∞ - y} = 0` for a real `y`. -/
theorem exp_bot_sub (y : ℝ) : Ideal.exp ((⊥ : EReal) - (y : EReal)) = 0 := by
  have h : (⊥ : EReal) - (y : EReal) = ⊥ := by
    rw [sub_eq_add_neg]; exact EReal.bot_add _
  rw [h]; rfl

/-- The maximum, from `-∞`, of a nonempty finite family of reals is a real (one of them). -/
theorem fold_max_coe {b : ℕ} (hb : 0 < b) (f : Fin b → ℝ) :
    ∃ β : ℝ, (Finset.univ : Finset (Fin b)).fold max (⊥ : EReal) (fun q => (f q : EReal)) = (β : EReal) := by
  haveI : Nonempty (Fin b) := ⟨⟨0, hb⟩⟩
  have h : (Finset.univ : Finset (Fin b)).fold max (⊥ : EReal) (fun q => (f q : EReal))
      = (Finset.univ : Finset (Fin b)).sup (fun q => (f q : EReal)) := rfl
  rw [h]
  obtain ⟨q, _, hq⟩ := Finset.exists_mem_eq_sup (Finset.univ : Finset (Fin b)) Finset.univ_nonempty (fun q => (f q : EReal))
  exact ⟨f q, hq⟩

variable {κ δ : Type} [DecidableEq κ]

/-- The state of the recurrence after the columns `A`: the running maximum is a real `μ`, and the two running sums are
    the sums over `A` of the exponentials shifted by `μ`. -/
def Inv (s : κ → ℝ) (v : κ → δ → ℝ) (A : Finset κ) (mE lE : EReal) (aE : δ → EReal) : Prop :=
  ∃ μ : ℝ, mE = (μ : EReal) ∧ lE = ((∑ k ∈ A, Real.exp (s k - μ) : ℝ) : EReal)
    ∧ ∀ d, aE d = ((∑ k ∈ A, Real.exp (s k - μ) * v k d : ℝ) : EReal)

/-- The new running maximum: the old one against the block's maximum from `-∞`. -/
def mNew {b : ℕ} (mE : EReal) (S : Fin b → EReal) : EReal :=
  max mE ((Finset.univ : Finset (Fin b)).fold max ⊥ S)

/-- The new normalizer: the old one rescaled, plus the block's exponentials. -/
def lNew {b : ℕ} (mE lE : EReal) (S : Fin b → EReal) : EReal :=
  Ideal.exp (mE - mNew mE S) * lE + ∑ q : Fin b, Ideal.exp (S q - mNew mE S)

/-- The new weighted sum (one output column): the old one rescaled, plus the block's exponentials times its values. -/
def aNew {b : ℕ} (mE aE : EReal) (S V : Fin b → EReal) : EReal :=
  Ideal.exp (mE - mNew mE S) * aE + ∑ q : Fin b, Ideal.exp (S q - mNew mE S) * V q

/-- The first block, from `(-∞, 0, 0)`. -/
theorem step_first {b : ℕ} (hb : 0 < b) (col : Fin b ↪ κ) (s : κ → ℝ) (v : κ → δ → ℝ) :
    Inv s v (Finset.univ.map col) (mNew ⊥ (fun q => ((s (col q) : ℝ) : EReal)))
      (lNew ⊥ 0 (fun q => ((s (col q) : ℝ) : EReal)))
      (fun d => aNew ⊥ 0 (fun q => ((s (col q) : ℝ) : EReal)) (fun q => ((v (col q) d : ℝ) : EReal))) := by
  obtain ⟨β, hβ⟩ := fold_max_coe hb (fun q => s (col q))
  have hm : mNew ⊥ (fun q => ((s (col q) : ℝ) : EReal)) = (β : EReal) := by
    unfold mNew; rw [hβ]; exact max_eq_right bot_le
  refine ⟨β, hm, ?_, fun d => ?_⟩
  · unfold lNew
    rw [hm, exp_bot_sub, zero_mul, zero_add, Finset.sum_map, coe_sum]
    exact Finset.sum_congr rfl fun q _ => exp_coe_sub _ _
  · show aNew ⊥ 0 (fun q => ((s (col q) : ℝ) : EReal)) (fun q => ((v (col q) d : ℝ) : EReal)) = _
    unfold aNew
    rw [hm, exp_bot_sub, zero_mul, zero_add, Finset.sum_map, coe_sum]
    refine Finset.sum_congr rfl fun q _ => ?_
    rw [exp_coe_sub, ← EReal.coe_mul]

/-- A further block, disjoint from the columns already seen. -/
theorem step_next {b : ℕ} (hb : 0 < b) (col : Fin b ↪ κ) (s : κ → ℝ) (v : κ → δ → ℝ) (A : Finset κ)
    (hd : Disjoint A (Finset.univ.map col)) (mE lE : EReal) (aE : δ → EReal) (h : Inv s v A mE lE aE) :
    Inv s v (A ∪ Finset.univ.map col) (mNew mE (fun q => ((s (col q) : ℝ) : EReal)))
      (lNew mE lE (fun q => ((s (col q) : ℝ) : EReal)))
      (fun d => aNew mE (aE d) (fun q => ((s (col q) : ℝ) : EReal)) (fun q => ((v (col q) d : ℝ) : EReal))) := by
  obtain ⟨μ, rfl, rfl, ha⟩ := h
  obtain ⟨β, hβ⟩ := fold_max_coe hb (fun q => s (col q))
  have hm : mNew (μ : EReal) (fun q => ((s (col q) : ℝ) : EReal)) = ((max μ β : ℝ) : EReal) := by
    unfold mNew; rw [hβ]; exact (EReal.coe_strictMono.monotone.map_max).symm
  have resc : ∀ (g : κ → ℝ), Real.exp (μ - max μ β) * (∑ k ∈ A, Real.exp (s k - μ) * g k)
      = ∑ k ∈ A, Real.exp (s k - max μ β) * g k := by
    intro g
    rw [Finset.mul_sum]
    refine Finset.sum_congr rfl fun k _ => ?_
    rw [← mul_assoc, ← Real.exp_add]
    congr 2; ring
  refine ⟨max μ β, hm, ?_, fun d => ?_⟩
  · unfold lNew
    rw [hm, exp_coe_sub, ← EReal.coe_mul, Finset.sum_union hd, Finset.sum_map, EReal.coe_add, coe_sum (Finset.univ)]
    refine congrArg₂ (· + ·) ?_ ?_
    · have := resc (fun _ => 1)
      simp only [mul_one] at this
      rw [this]
    · exact Finset.sum_congr rfl fun q _ => exp_coe_sub _ _
  · show aNew (μ : EReal) (aE d) (fun q => ((s (col q) : ℝ) : EReal)) (fun q => ((v (col q) d : ℝ) : EReal)) = _
    unfold aNew
    rw [hm, ha d, exp_coe_sub, ← EReal.coe_mul, Finset.sum_union hd, Finset.sum_map, EReal.coe_add, coe_sum (Finset.univ)]
    refine congrArg₂ (· + ·) ?_ ?_
    · rw [resc (fun k => v k d)]
    · refine Finset.sum_congr rfl fun q _ => ?_
      rw [exp_coe_sub, ← EReal.coe_mul]

/-- The softmax-weighted sum of the values over the columns `A`. -/
def wsum (s : κ → ℝ) (v : κ → δ → ℝ) (A : Finset κ) (d : δ) : ℝ :=
  (∑ k ∈ A, Real.exp (s k) * v k d) / (∑ k ∈ A, Real.exp (s k))

/-- Shifting every score by one real does not change the softmax-weighted sum. -/
theorem wsum_shift (s : κ → ℝ) (v : κ → δ → ℝ) (A : Finset κ) (d : δ) (μ : ℝ) :
    (∑ k ∈ A, Real.exp (s k - μ) * v k d) / (∑ k ∈ A, Real.exp (s k - μ)) = wsum s v A d := by
  unfold wsum
  have e1 : ∑ k ∈ A, Real.exp (s k - μ) * v k d = Real.exp (-μ) * ∑ k ∈ A, Real.exp (s k) * v k d := by
    rw [Finset.mul_sum]
    refine Finset.sum_congr rfl fun k _ => ?_
    rw [sub_eq_add_neg, Real.exp_add]; ring
  have e2 : ∑ k ∈ A, Real.exp (s k - μ) = Real.exp (-μ) * ∑ k ∈ A, Real.exp (s k) := by
    rw [Finset.mul_sum]
    refine Finset.sum_congr rfl fun k _ => ?_
    rw [sub_eq_add_neg, Real.exp_add]; ring
  rw [e1, e2, mul_div_mul_left _ _ (Real.exp_pos _).ne']

/-- A sum of exponentials over a nonempty set is not zero. -/
theorem sum_exp_ne_zero (f : κ → ℝ) (A : Finset κ) (hA : A.Nonempty) : (∑ k ∈ A, Real.exp (f k)) ≠ 0 :=
  (Finset.sum_pos (fun k _ => Real.exp_pos (f k)) hA).ne'

/-- The recurrence's last step: the weighted sum divided by the normalizer is the softmax-weighted sum. -/
theorem final_div (s : κ → ℝ) (v : κ → δ → ℝ) (A : Finset κ) (hA : A.Nonempty) (mE lE : EReal) (aE : δ → EReal)
    (h : Inv s v A mE lE aE) (d : δ) : Ideal.div (aE d) lE = ((wsum s v A d : ℝ) : EReal) := by
  obtain ⟨μ, _, rfl, ha⟩ := h
  have hne : (∑ k ∈ A, Real.exp (s k - μ)) ≠ 0 := sum_exp_ne_zero (fun k => s k - μ) A hA
  rw [Ideal.div_coe hne, ha d, ← EReal.coe_mul, ← wsum_shift s v A d μ, mul_one_div]

/-- The reference's order: each exponential divided by the normalizer (a sum started from zero), then weighted and
    summed — the same softmax-weighted sum, for any real shift `μ`. -/
theorem ref_sum [Fintype κ] [Nonempty κ] (s : κ → ℝ) (v : κ → δ → ℝ) (μ : ℝ) (d : δ) :
    ∑ k : κ, Ideal.div (Ideal.exp (((s k : ℝ) : EReal) - (μ : EReal)))
        ((0 : EReal) + ∑ k' : κ, Ideal.exp (((s k' : ℝ) : EReal) - (μ : EReal))) * ((v k d : ℝ) : EReal)
      = ((wsum s v Finset.univ d : ℝ) : EReal) := by
  have hL : (0 : EReal) + ∑ k' : κ, Ideal.exp (((s k' : ℝ) : EReal) - (μ : EReal))
      = ((∑ k' : κ, Real.exp (s k' - μ) : ℝ) : EReal) := by
    rw [zero_add, coe_sum]
    exact Finset.sum_congr rfl fun k _ => exp_coe_sub _ _
  have hne : (∑ k' : κ, Real.exp (s k' - μ)) ≠ 0 :=
    sum_exp_ne_zero (fun k => s k - μ) Finset.univ Finset.univ_nonempty
  have hW : ((wsum s v Finset.univ d : ℝ) : EReal)
      = ∑ k : κ, ((Real.exp (s k - μ) * (1 / ∑ k' : κ, Real.exp (s k' - μ)) * v k d : ℝ) : EReal) := by
    rw [← wsum_shift s v Finset.univ d μ, ← coe_sum]
    refine congrArg (fun x : ℝ => (x : EReal)) ?_
    rw [Finset.sum_div]
    exact Finset.sum_congr rfl fun k _ => by ring
  rw [hL, hW]
  refine Finset.sum_congr rfl fun k _ => ?_
  rw [Ideal.div_coe hne, exp_coe_sub, ← EReal.coe_mul, ← EReal.coe_mul]

end Cert.OnlineSoftmax

end
-- ==== Proof.GroupLaw.lean ====
/-
  The loss of one group, computed two ways, is one real number.

  A group is 16 rows of reals. Each row is divided by its Euclidean norm clamped below at a positive `ε`, so the
  divisor is a positive real and every normalised entry, hence every inner product of two normalised rows, is real.
  One program divides the inner products by the temperature word `D = 9395241 / 2^27`; the other multiplies by the
  real `1 / D`: the same logits. The second also subtracts the row maximum `M` before exponentiating; since
  `Σ_k e^{l k − M} α k + e^{l j − M} = e^{−M} (Σ_k e^{l k} α k + e^{l j})` with a positive bracket, the logarithm
  splits and the shift cancels. The positive-pair weights are `1` on the `16 · 3` ordered pairs of distinct rows
  with one label and `0` elsewhere, so they sum to `48`.
-/
import proofs.«168382_j3461743640727_2_alg».proof.Proof.Spec
import proofs.«168382_j3461743640727_2_alg».proof.Proof.LibRealClosed
import proofs.«168382_j3461743640727_2_alg».proof.Proof.LibOnlineSoftmax

noncomputable section

open scoped BigOperators

namespace Cert.GroupLoss

open Cert.LibRealClosed Idealize.ShloMosaic

/-! ### The three literal words -/

/-- The word `48.0` denotes the real `48`. -/
theorem ofBits_48 : Ideal.ofBits .f32 0x42400000#32 = ((48 : ℝ) : EReal) := by
  simp [Ideal.ofBits, Ideal.ieee, -EReal.coe_mul]; norm_num

/-- The temperature word is exactly `9395241 / 2^27`. -/
theorem temp_eq : temp = ((9395241 / 134217728 : ℝ) : EReal) := by
  simp [temp, Ideal.ofBits, Ideal.ieee, -EReal.coe_mul]; norm_num

/-- The clamp word is `9223372 / 2^63`, a positive real. -/
theorem eps_pos_real : ∃ e : ℝ, 0 < e ∧ eps = (e : EReal) := by
  refine ⟨9223372 / 9223372036854775808, by norm_num, ?_⟩
  simp [eps, Ideal.ofBits, Ideal.ieee, -EReal.coe_mul]; norm_num

/-! ### The inner products of the normalised rows are real -/

/-- The clamped norm of a row of reals is a positive real: it is at least `ε > 0`. -/
theorem nrm_pos_real (y : Group) (hy : ∀ r c, IsReal (y r c)) (r : Fin 16) :
    ∃ n : ℝ, 0 < n ∧ nrm y r = (n : EReal) := by
  obtain ⟨e, he, hE⟩ := eps_pos_real
  obtain ⟨s, hs⟩ := IsReal.sum Finset.univ (fun c => y r c * y r c) (fun c _ => (hy r c).mul (hy r c))
  have hs' : (∑ c : Fin 2048, y r c * y r c) = (s : EReal) := hs
  unfold nrm
  rw [hs', hE, Ideal.sqrt_coe]
  split_ifs with h
  · exact ⟨e, he, max_eq_right bot_le⟩
  · exact ⟨max (Real.sqrt s) e, lt_max_of_lt_right he, (EReal.coe_strictMono.monotone.map_max).symm⟩

/-- A real over a positive real is real, and so is a finite sum of products of such quotients. -/
theorem cos_real (y : Group) (hy : ∀ r c, IsReal (y r c)) (i j : Fin 16) : IsReal (cos y i j) := by
  have hu : ∀ r c, IsReal (unit y r c) := by
    intro r c
    obtain ⟨n, hn, hN⟩ := nrm_pos_real y hy r
    unfold unit
    rw [hN]
    exact (hy r c).div (IsReal.coe n) (by exact_mod_cast hn.ne')
  exact IsReal.sum Finset.univ (fun c => unit y i c * unit y j c) fun c _ => (hu i c).mul (hu j c)

/-! ### Subtracting the row maximum does not change a log-probability -/

/-- For real logits `l` with maximum `M` and weights `α ≥ 0`,
    `Σ_k e^{l k − M} α k + e^{l j − M} = e^{−M} · (Σ_k e^{l k} α k + e^{l j})`, and the bracket is at least
    `e^{l j} > 0`; so the logarithm of the left side is `−M` plus the logarithm of the bracket, and
    `(l j − M) − (−M + log(…)) = l j − log(…)`. Both sides are real numbers. -/
theorem lpShift_eq_lp (ℓ a : Fin 16 → EReal) (hℓ : ∀ k, IsReal (ℓ k)) (ha : ∀ k, a k = 0 ∨ a k = 1) (j : Fin 16) :
    lpShift ℓ a j = lp ℓ a j ∧ IsReal (lp ℓ a j) := by
  choose l hl using hℓ
  have ha' : ∀ k, ∃ r : ℝ, 0 ≤ r ∧ a k = (r : EReal) := by
    intro k
    rcases ha k with h | h
    · exact ⟨0, le_refl _, by rw [h]; rfl⟩
    · exact ⟨1, zero_le_one, by rw [h]; rfl⟩
  choose α hα0 hα using ha'
  obtain ⟨M, hM⟩ := Cert.OnlineSoftmax.fold_max_coe (b := 16) (by norm_num) l
  have hrow : rowMax ℓ = (M : EReal) := by
    have hfun : ℓ = fun k => (l k : EReal) := funext hl
    unfold rowMax
    rw [hfun]; exact hM
  obtain ⟨S, hS⟩ : ∃ S : ℝ, S = (∑ k : Fin 16, Real.exp (l k) * α k) + Real.exp (l j) := ⟨_, rfl⟩
  obtain ⟨S', hS'⟩ : ∃ S' : ℝ, S' = (∑ k : Fin 16, Real.exp (l k - M) * α k) + Real.exp (l j - M) := ⟨_, rfl⟩
  have hSpos : 0 < S := by
    have h1 : 0 ≤ ∑ k : Fin 16, Real.exp (l k) * α k :=
      Finset.sum_nonneg fun k _ => mul_nonneg (Real.exp_pos _).le (hα0 k)
    have h2 := Real.exp_pos (l j)
    rw [hS]; linarith
  have hS'eq : S' = Real.exp (-M) * S := by
    rw [hS', hS, mul_add, Finset.mul_sum]
    congr 1
    · refine Finset.sum_congr rfl fun k _ => ?_
      rw [sub_eq_add_neg, Real.exp_add]; ring
    · rw [sub_eq_add_neg, Real.exp_add]; ring
  have hS'pos : 0 < S' := by rw [hS'eq]; exact mul_pos (Real.exp_pos _) hSpos
  have hlog : Real.log S' = -M + Real.log S := by
    rw [hS'eq, Real.log_mul (Real.exp_pos _).ne' hSpos.ne', Real.log_exp]
  have e1 : (∑ k : Fin 16, Ideal.exp (ℓ k) * a k) + Ideal.exp (ℓ j) = (S : EReal) := by
    rw [hS, EReal.coe_add, Cert.OnlineSoftmax.coe_sum]
    congr 1
    · refine Finset.sum_congr rfl fun k _ => ?_
      rw [hl k, hα k, Ideal.exp_coe, EReal.coe_mul]
    · rw [hl j, Ideal.exp_coe]
  have e2 : (∑ k : Fin 16, Ideal.exp (ℓ k - rowMax ℓ) * a k) + Ideal.exp (ℓ j - rowMax ℓ) = (S' : EReal) := by
    rw [hS', EReal.coe_add, Cert.OnlineSoftmax.coe_sum, hrow]
    congr 1
    · refine Finset.sum_congr rfl fun k _ => ?_
      rw [hl k, hα k, Cert.OnlineSoftmax.exp_coe_sub, EReal.coe_mul]
    · rw [hl j, Cert.OnlineSoftmax.exp_coe_sub]
  have hlp : lp ℓ a j = ((l j - Real.log S : ℝ) : EReal) := by
    unfold lp
    rw [e1, Ideal.log_coe, if_neg (not_le.mpr hSpos), hl j, EReal.coe_sub]
  have hlps : lpShift ℓ a j = ((l j - M - Real.log S' : ℝ) : EReal) := by
    unfold lpShift
    rw [e2, Ideal.log_coe, if_neg (not_le.mpr hS'pos), hrow, hl j, EReal.coe_sub, EReal.coe_sub]
  refine ⟨?_, ?_⟩
  · rw [hlp, hlps, hlog]; congr 1; ring
  · rw [hlp]; exact ⟨_, rfl⟩

/-! ### The two masks -/

theorem same_zero_or_one (i j : Fin 16) : same i j = 0 ∨ same i j = 1 := by
  unfold same; split_ifs
  · exact Or.inr rfl
  · exact Or.inl rfl

theorem one_sub_one : (1 : EReal) - 1 = 0 := by
  rw [← EReal.coe_one, ← EReal.coe_sub, sub_self]; rfl

/-- The negative-pair weight is `0` or `1`. -/
theorem anti_zero_or_one (i k : Fin 16) : anti i k = 0 ∨ anti i k = 1 := by
  unfold anti
  rcases same_zero_or_one i k with h | h
  · right; rw [h]; exact sub_zero _
  · left; rw [h]; exact one_sub_one

/-- The positive-pair weight is real. -/
theorem mpos_real (i j : Fin 16) : IsReal (mpos i j) := by
  have hs : IsReal (same i j) := by
    unfold same; split_ifs
    · exact IsReal.one
    · exact IsReal.zero
  have he : IsReal (eye i j) := by
    unfold eye; split_ifs
    · exact IsReal.one
    · exact IsReal.zero
  exact hs.mul (IsReal.one.sub he)

/-- The positive-pair weight as a count: `1` exactly on the ordered pairs of distinct rows with one label. -/
theorem mpos_eq (i j : Fin 16) :
    mpos i j = (((if i.val / 4 = j.val / 4 ∧ i ≠ j then 1 else 0 : ℕ) : ℝ) : EReal) := by
  unfold mpos same eye
  by_cases h1 : i.val / 4 = j.val / 4 <;> by_cases h2 : i = j <;> simp [h1, h2, one_sub_one]

/-- There are `16 · 3 = 48` ordered pairs of distinct rows with one label. -/
theorem count_mpos :
    (∑ i : Fin 16, ∑ j : Fin 16, (if i.val / 4 = j.val / 4 ∧ i ≠ j then 1 else 0 : ℕ)) = 48 := by
  decide

/-- The positive-pair weights sum to `48`. -/
theorem sum_mpos : (∑ i : Fin 16, ∑ j : Fin 16, mpos i j) = ((48 : ℝ) : EReal) := by
  have h : (∑ i : Fin 16, ∑ j : Fin 16, mpos i j)
      = (((∑ i : Fin 16, ∑ j : Fin 16, (if i.val / 4 = j.val / 4 ∧ i ≠ j then 1 else 0 : ℕ) : ℕ) : ℝ) : EReal) := by
    rw [Nat.cast_sum, Cert.OnlineSoftmax.coe_sum]
    refine Finset.sum_congr rfl fun i _ => ?_
    rw [Nat.cast_sum, Cert.OnlineSoftmax.coe_sum]
    exact Finset.sum_congr rfl fun j _ => mpos_eq i j
  rw [h, count_mpos]; norm_num

/-! ### The two losses of a group agree -/

/-- Dividing by the temperature word is multiplying by its reciprocal `2^27 / 9395241`, at every extended real. -/
theorem logits_eq (x : EReal) : Ideal.div x temp = x * invTemp := by
  have h : (1 / (9395241 / 134217728) : ℝ) = 134217728 / 9395241 := by norm_num
  rw [temp_eq, Ideal.div_coe (by norm_num), h]

/-- The logits of a group of reals are real. -/
theorem logits_real (y : Group) (hy : ∀ r c, IsReal (y r c)) (i k : Fin 16) : IsReal (cos y i k * invTemp) :=
  (cos_real y hy i k).mul (IsReal.coe _)

/-- Entry by entry the two programs' logits are the same real numbers, and on real logits the shifted and the
    unshifted log-probabilities agree; so the two losses are the same sum. -/
theorem loss_eq (y : Group) (hy : ∀ r c, IsReal (y r c)) : lossMul y = lossDiv y := by
  unfold lossMul lossDiv
  refine Finset.sum_congr rfl fun i _ => Finset.sum_congr rfl fun j _ => ?_
  have hfun : (fun k => Ideal.div (cos y i k) temp) = fun k => cos y i k * invTemp :=
    funext fun k => logits_eq (cos y i k)
  rw [hfun, (lpShift_eq_lp _ _ (logits_real y hy i) (anti_zero_or_one i) j).1]

/-- The loss of a group of reals is real: a finite sum of products of real log-probabilities and real weights. -/
theorem lossDiv_real (y : Group) (hy : ∀ r c, IsReal (y r c)) : IsReal (lossDiv y) := by
  unfold lossDiv
  refine IsReal.sum _ _ fun i _ => IsReal.sum _ _ fun j _ => ?_
  have hfun : (fun k => Ideal.div (cos y i k) temp) = fun k => cos y i k * invTemp :=
    funext fun k => logits_eq (cos y i k)
  rw [hfun]
  exact (lpShift_eq_lp _ _ (logits_real y hy i) (anti_zero_or_one i) j).2.mul (mpos_real i j)

/-! ### The two half-sums of the kernel, each divided by `48`, add to the whole divided by `48` -/

theorem combine_cores (a b : EReal) (ha : IsReal a) (hb : IsReal b) :
    Ideal.div (0 - a) (Ideal.ofBits .f32 0x42400000#32) + Ideal.div (0 - b) (Ideal.ofBits .f32 0x42400000#32)
      = Ideal.div (-(a + b)) ((48 : ℝ) : EReal) := by
  obtain ⟨ra, rfl⟩ := ha; obtain ⟨rb, rfl⟩ := hb
  have h48 : (48 : ℝ) ≠ 0 := by norm_num
  rw [ofBits_48, Ideal.div_coe h48, Ideal.div_coe h48, Ideal.div_coe h48, zero_sub, zero_sub, ← EReal.coe_neg,
    ← EReal.coe_neg, ← EReal.coe_add, ← EReal.coe_neg, ← EReal.coe_mul, ← EReal.coe_mul, ← EReal.coe_mul,
    ← EReal.coe_add]
  congr 1; ring

end Cert.GroupLoss

end
-- ==== Proof.TotalSum.lean ====
/-
  The kernel's two per-core totals, each divided by 48, add up to the reference's total divided by the number of
  positive pairs.

  The 1024 groups are summed core by core (2 cores), step by step (8 steps per core), 64 groups per step: group number
  `g = (8·p + s)·64 + g'`. Writing `g` in this mixed radix is a bijection between `Fin 2 × Fin 8 × Fin 64` and `Fin 1024`
  (its inverse is `g ↦ (g / 512, g / 64 mod 8, g mod 64)`), so the sum over all groups is the sum of the two cores'
  sums: a pure re-indexing in a commutative monoid. When every group's loss is real so is each core's sum, and then
  `(0 − a)/48 + (0 − b)/48 = −(a + b)/48`; the positive-pair weights sum to `48`.
-/
import proofs.«168382_j3461743640727_2_alg».proof.Proof.Spec
import proofs.«168382_j3461743640727_2_alg».proof.Proof.GroupLaw
import proofs.«168382_j3461743640727_2_alg».proof.Proof.LibRealClosed

noncomputable section

open scoped BigOperators

namespace Cert.GroupLoss

open Cert.LibRealClosed Idealize.ShloMosaic

/-- The groups one core sums: 8 steps of 64 groups. -/
def coreSum (L : Fin 1024 → EReal) (p : Fin 2) : EReal :=
  ∑ s : Fin 8, ∑ g' : Fin 64, L ⟨(8 * p.val + s.val) * 64 + g'.val, by have := p.isLt; have := s.isLt; have := g'.isLt; omega⟩

/-- Group number `(8·p + s)·64 + g'` from the core `p`, the step `s` and the place `g'` within the step: a bijection
    onto `Fin 1024`, with inverse `g ↦ (g / 512, g / 64 mod 8, g mod 64)`. -/
def groupEquiv : Fin 2 × Fin 8 × Fin 64 ≃ Fin 1024 where
  toFun x := ⟨(8 * x.1.val + x.2.1.val) * 64 + x.2.2.val, by
    have := x.1.isLt; have := x.2.1.isLt; have := x.2.2.isLt; omega⟩
  invFun g := (⟨g.val / 512, by have := g.isLt; omega⟩, ⟨g.val / 64 % 8, by omega⟩, ⟨g.val % 64, by omega⟩)
  left_inv x := by
    obtain ⟨p, s, g'⟩ := x
    have hp := p.isLt
    have hs := s.isLt
    have hg := g'.isLt
    refine Prod.ext (Fin.ext ?_) (Prod.ext (Fin.ext ?_) (Fin.ext ?_))
    · show ((8 * p.val + s.val) * 64 + g'.val) / 512 = p.val
      omega
    · show ((8 * p.val + s.val) * 64 + g'.val) / 64 % 8 = s.val
      omega
    · show ((8 * p.val + s.val) * 64 + g'.val) % 64 = g'.val
      omega
  right_inv g := by
    refine Fin.ext ?_
    have hg := g.isLt
    show (8 * (g.val / 512) + g.val / 64 % 8) * 64 + g.val % 64 = g.val
    omega

/-- The sum over all groups is the sum of the two cores' sums. -/
theorem sum_groups (L : Fin 1024 → EReal) : (∑ g : Fin 1024, L g) = coreSum L 0 + coreSum L 1 := by
  rw [← Equiv.sum_comp groupEquiv L, Fintype.sum_prod_type, Fin.sum_univ_two]
  simp only [Fintype.sum_prod_type]
  rfl

/-- A core's sum of real losses is real. -/
theorem coreSum_real (L : Fin 1024 → EReal) (hL : ∀ g, IsReal (L g)) (p : Fin 2) : IsReal (coreSum L p) := by
  unfold coreSum
  exact IsReal.sum _ _ fun s _ => IsReal.sum _ _ fun g' _ => hL _

/-- The two cores' negated sums, each divided by the word `48.0`, add up to minus the sum over all groups divided by
    the number of positive pairs. -/
theorem total_eq (L : Fin 1024 → EReal) (hL : ∀ g, IsReal (L g)) :
    Ideal.div (0 - coreSum L 0) (Ideal.ofBits .f32 0x42400000#32) + Ideal.div (0 - coreSum L 1) (Ideal.ofBits .f32 0x42400000#32)
      = Ideal.div (-(∑ g : Fin 1024, L g)) (∑ i : Fin 16, ∑ j : Fin 16, mpos i j) := by
  rw [combine_cores _ _ (coreSum_real L hL 0) (coreSum_real L hL 1), ← sum_groups, sum_mpos]

end Cert.GroupLoss

end
-- ==== Proof.FiniteInputs.lean ====
/-
  From the certificate's precondition to "every input entry is a real number".

  The precondition compares `|x|` entrywise, strictly, with the word of `+∞`, and takes the conjunction of all the
  answers (a reduction by `and` over all three axes, from `1`). If the conjunction is `1` then every answer is `1`:
  at every index `max x (−x) < ⊤`, so `x` is neither infinity — it is a real number.
-/
import proofs.«168382_j3461743640727_2_alg».proof.Defs
import proofs.«168382_j3461743640727_2_alg».proof.Proof.Gen.Pre_finite_inputs
import proofs.«168382_j3461743640727_2_alg».proof.Proof.LibRealClosed
import Idealize.ShloMosaic.Lib.ReduceAll
import Idealize.ShloMosaic.Lib.ValueIdx

noncomputable section

namespace Cert.FiniteInputs

open Idealize.ShloMosaic Idealize.SL.Sem

/-- A rank-0 array has one index. -/
instance : Subsingleton Cert.Pre_finite_inputs.S_.Idx := ⟨fun a b => funext fun d => d.elim0⟩

/-- The word `0x7F800000` denotes `+∞`. -/
theorem ofBits_top : Ideal.ofBits .f32 0x7F800000#32 = (⊤ : EReal) := by
  simp [Ideal.ofBits, Ideal.ieee]

/-- A strict comparison that answered `1` holds. -/
theorem lt_of_cmp_olt {a b : EReal} (h : Ideal.cmp .olt a b = 1#1) : a < b := by
  unfold Ideal.cmp at h
  by_contra hn
  simp [hn] at h

/-- If the conjunction over all entries of `|x| < +∞` is `1`, every entry of `x` is a real number. -/
theorem real_of_pre (x : FVec Ideal Cert.Pre_finite_inputs.S4096x2048x4 .f32)
    (h : Cert.Pre_finite_inputs.fn (F := Ideal) x = fun _ => 1#1) : ∀ i, Cert.LibRealClosed.IsReal (x i) := by
  intro i
  have h0 := congrFun h ValueIdx.ix0
  dsimp only [Cert.Pre_finite_inputs.fn] at h0
  have hi := Host.reduce_andi_all _ _ _ _ _ h0 i
  have hi' : Ideal.cmp .olt (max (x i) (-(x i))) (Ideal.ofBits .f32 0x7F800000#32) = 1#1 := hi
  rw [ofBits_top] at hi'
  exact Cert.LibRealClosed.isReal_of_abs_lt_top (lt_of_cmp_olt hi')

/-- The same, of the kernel's argument array in a memory of which the precondition holds. -/
theorem real_of_pre_kernel
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ i, Cert.LibRealClosed.IsReal
      (m ((c.tc : Thread Cert.KernelIdeal.nD Cert.KernelIdeal.τ).loc Cert.KernelIdeal.main_arg0) i) :=
  real_of_pre _ (h c)

end Cert.FiniteInputs

end
-- ==== Proof.KernelValue.lean ====
import proofs.«168382_j3461743640727_2_alg».proof.Proof.KernelAcc
import proofs.«168382_j3461743640727_2_alg».proof.Proof.KernelInput
import proofs.«168382_j3461743640727_2_alg».proof.Proof.KernelResult
import proofs.«168382_j3461743640727_2_alg».proof.Proof.TotalSum
import proofs.«168382_j3461743640727_2_alg».proof.Proof.GroupLaw
import proofs.«168382_j3461743640727_2_alg».proof.Proof.FiniteInputs

/-!
# The kernel's result word

Each core's final accumulator is the sum of the kernel-form losses of the 512 groups the core was given; on finite
inputs every group loss is a real number and equals the reference-form loss, so the two cores' words
`(0 − A₀)/48 + (0 − A₁)/48` are `−(Σ_g loss g) / Σ mask`, the reference's quotient.
-/

noncomputable section

open scoped BigOperators
open Idealize.ShloMosaic Idealize.ShloMosaic.TcCoe Idealize.SL.Sem Idealize.ShloMosaic.ValueIdx

namespace Cert.KernelIdeal.KValue

open Cert.KernelIdeal Cert.KernelIdeal.Gen Cert.KernelIdeal.KBlock Cert.KernelIdeal.KAcc Cert.GroupLoss Cert.LibRealClosed

variable (m : (ℓ : Loc nD τ sig) → Buf (Elt Ideal) ℓ)

/-- The loss of the block staged at point `t`, over the argument's groups `64·t, …, 64·t + 63`. -/
theorem blockLoss_iblk (c : Dev nD) (t : Fin cfg0.N) :
    blockLoss (iblk m c 0 t) = ∑ g : Fin 64, lossMul (grp (m ((c : Thread nD τ).loc main_arg0))
      ⟨t.val * 64 + g.val, by have := t.isLt; have h : cfg0.N = 16 := N_0; have := g.isLt; omega⟩) := by
  unfold blockLoss
  refine Finset.sum_congr rfl fun g _ => ?_
  exact congrArg lossMul (KInput.iblk_group m c t g)

/-- A core's final accumulator is the sum of its groups' losses. -/
theorem coreAcc_eq (c : Dev nD) (p : Fin 2) :
    KResult.coreAcc m c p = coreSum (fun g => lossMul (grp (m ((c : Thread nD τ).loc main_arg0)) g)) p := by
  have hN : cfg0.N = 16 := N_0
  have hp := p.isLt
  unfold KResult.coreAcc coreSum
  rw [acc_eq m c (8 * p.val + 7) (by omega)]
  rw [show (8 * p.val + 7) % 8 + 1 = 8 by omega, show 8 * p.val + 7 - (8 * p.val + 7) % 8 = 8 * p.val by omega,
    Finset.sum_range]
  refine Finset.sum_congr rfl fun s _ => ?_
  have hs := s.isLt
  rw [ptLoss_of_lt m c ⟨8 * p.val + s.val, by omega⟩, blockLoss_iblk]

/-- The kernel's run, read: on finite inputs the result word is the reference's quotient. -/
theorem run (ρ : Dev nD → PrngReg) (hpre : Cert.Pre_KernelIdeal (hPre_finite_inputs := Cert.Pre_finite_inputs.Gen.facts) m) :
    θ_run defs (onTc (τ := τ) (main (F := Ideal))) ⟨m, fun _ => 0, ρ⟩ (fun r => ∀ c : Dev nD,
      r.2.mem ((c.tc : Thread nD τ).loc main_v5) = (fun _ =>
          Ideal.div (-(∑ g : Fin 1024, lossDiv (grp (m ((c.tc : Thread nD τ).loc main_arg0)) g)))
            (∑ i : Fin 16, ∑ j : Fin 16, mpos i j))
      ∧ r.2.mem ((c.tc : Thread nD τ).loc main_arg0) = m ((c.tc : Thread nD τ).loc main_arg0)) := by
  refine (θ_run defs _ _).mono (fun r h c => ⟨(h c).1.trans ?_, (h c).2⟩) (KResult.run_result m ρ)
  have hreal : ∀ g r k, IsReal (grp (m ((c.tc : Thread nD τ).loc main_arg0)) g r k) := fun g r k =>
    Cert.FiniteInputs.real_of_pre_kernel m hpre c _
  have hL : (fun g => lossMul (grp (m ((c.tc : Thread nD τ).loc main_arg0)) g))
      = fun g => lossDiv (grp (m ((c.tc : Thread nD τ).loc main_arg0)) g) :=
    funext fun g => loss_eq _ (hreal g)
  funext _
  rw [coreAcc_eq, coreAcc_eq, hL]
  exact total_eq _ (fun g => lossDiv_real _ (hreal g))

end Cert.KernelIdeal.KValue

end
-- ==== Proof.lean ====
/- Both programs compute a supervised-contrastive loss over 1024 groups of 16 rows: each row is divided by its
   clamped Euclidean norm, the 16 × 16 matrix of inner products is scaled to logits, and the masked log-probabilities
   are summed and averaged over the 48 positive pairs of a group pattern. The kernel multiplies by the reciprocal of
   the temperature where the reference divides by it, subtracts each row's maximum before exponentiating, and sums
   group by group, 64 groups per grid point, eight points per core, two cores; on finite inputs every intermediate is
   a real number, the shift cancels inside the logarithm, and the two cores' partial quotients add up to the
   reference's one quotient. The kernel's frames are the generated ones, the reference's frame is its generated run;
   the named reciprocal is the one entry of the idealization's ledger. -/
import proofs.«168382_j3461743640727_2_alg».proof.Defs
import proofs.«168382_j3461743640727_2_alg».proof.Proof.Gen.Kernel
import proofs.«168382_j3461743640727_2_alg».proof.Proof.Gen.Kernel.Skeleton
import proofs.«168382_j3461743640727_2_alg».proof.Proof.Gen.Kernel.Launch
import proofs.«168382_j3461743640727_2_alg».proof.Proof.Gen.Kernel.Points
import proofs.«168382_j3461743640727_2_alg».proof.Proof.Gen.Kernel.Frame
import proofs.«168382_j3461743640727_2_alg».proof.Proof.Gen.KernelIdeal
import proofs.«168382_j3461743640727_2_alg».proof.Proof.Gen.KernelIdeal.Skeleton
import proofs.«168382_j3461743640727_2_alg».proof.Proof.Gen.KernelIdeal.Launch
import proofs.«168382_j3461743640727_2_alg».proof.Proof.Gen.KernelIdeal.Points
import proofs.«168382_j3461743640727_2_alg».proof.Proof.Gen.KernelIdeal.Frame
import proofs.«168382_j3461743640727_2_alg».proof.Proof.Gen.ReferenceIdeal
import proofs.«168382_j3461743640727_2_alg».proof.Proof.Gen.Pre_finite_inputs
import proofs.«168382_j3461743640727_2_alg».proof.Proof.RefSide
import proofs.«168382_j3461743640727_2_alg».proof.Proof.KernelValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ledger's one entry: the kernel's scale word is named the reciprocal of the reference's temperature word. -/
theorem preserves : Cert.preserves_Kernel_KernelIdeal :=
  IdealRules.named_const.statement Cert.KernelIdeal.κ "inv_temp" .f32 0x41649249#32 ((134217728 / 9395241 : ℝ) : EReal) rfl

/-- Both runs end at the same quotient of the same argument. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.KValue.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.ReferenceIdeal.RefValue.ref_value, hagree c]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
